-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x165 : Shape := ⟨2, ![100000, 165]⟩
abbrev S2x1600000 : Shape := ⟨2, ![2, 1600000]⟩
abbrev S165x128 : Shape := ⟨2, ![165, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S100000x165 : S_.BroadcastsInDim S100000x165 (![] : Fin 0 → Fin S100000x165.rank)
  reducesTo_S100000x165_S_d0_1 : S100000x165.ReducesTo [0, 1] S_
  h_S_ : 0 < S_.numel
  bcast_S_S165x128 : S_.BroadcastsInDim S165x128 (![] : Fin 0 → Fin S165x128.rank)
  reducesTo_S165x128_S_d0_1 : S165x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S128 .f32) (main_arg6 : FVec F S128x2 .f32) (main_arg7 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x2 .f32 := Host.absf main_arg6
  let main_cst_8 : FVec F S_ .f32 := constant S_ .f32 0x7F800000#32
  let main_v25 : FVec F S128x2 .f32 := broadcastInDim S128x2 ![] bcast_S_S128x2 main_cst_8
  let main_v26 : IVec S128x2 1 := cmpf .olt main_v24 main_v25
  let main_c_9 : IVec S_ 1 := constantI S_ 1 1#1
  let main_v27 : IVec S_ 1 := (fun x v => Host.reduce IntOp.andi x v reducesTo_S128x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x165 .f32) (main_arg1 : IVec S2x1600000 32) (main_arg2 : FVec F S165x128 .f32) (main_arg3 : FVec F S128 .f32) (main_arg4 : FVec F S128x128 .f32) (main_arg5 : FVec F S128 .f32) (main_arg6 : FVec F S128x2 .f32) (main_arg7 : FVec F S2 .f32) : IVec S_ 1 :=
  let main_v0 : FVec F S100000x165 .f32 := Host.absf main_arg0
  let main_cst : FVec F S_ .f32 := constant S_ .f32 0x7F800000#32
  let main_v1 : FVec F S100000x165 .f32 := broadcastInDim S100000x165 ![] bcast_S_S100000x165 main_cst
  let main_v2 : IVec S100000x165 1 := cmpf .olt main_v0 main_v1
  let main_c : IVec S_ 1 := constantI S_ 1 1#1
  let main_v3 : IVec S_ 1 := (fun x v => Host.reduce IntOp.andi x v reducesTo_S100000x165_S_d0_1 h_S_) main_v2 main_c
  let main_v4 : FVec F S165x128 .f32 := Host.absf main_arg2
  let main_cst_0 : FVec F S_ .f32 := constant S_ .f32 0x7F800000#32
  let main_v5 : FVec F S165x128 .f32 := broadcastInDim S165x128 ![] bcast_S_S165x128 main_cst_0
  let main_v6 : IVec S165x128 1 := cmpf .olt main_v4 main_v5
  let main_c_1 : IVec S_ 1 := constantI S_ 1 1#1
  let main_v7 : IVec S_ 1 := (fun x v => Host.reduce IntOp.andi x v reducesTo_S165x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x165 : Shape := ⟨2, ![100000, 165]⟩
abbrev S2x1600000 : Shape := ⟨2, ![2, 1600000]⟩
abbrev S165x128 : Shape := ⟨2, ![165, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S5000x165 : Shape := ⟨2, ![5000, 165]⟩
abbrev S5000x128 : Shape := ⟨2, ![5000, 128]⟩
abbrev S1600000x128 : Shape := ⟨2, ![1600000, 128]⟩
abbrev S1x128 : Shape := ⟨2, ![1, 128]⟩
abbrev S5000x1 : Shape := ⟨2, ![5000, 1]⟩
abbrev S1x2 : Shape := ⟨2, ![1, 2]⟩
abbrev S100000x2 : Shape := ⟨2, ![100000, 2]⟩
abbrev S5000x2 : Shape := ⟨2, ![5000, 2]⟩

abbrev nBuf : Space → Nat
  | .hbm => 83
  | .vmem => 34
  | .smem => 0
  | _ => 0

abbrev bufTy : (tb : Table) → Fin (tcTables nBuf tb) → BufTy
  | .hbm, ⟨0, _⟩ => ⟨S100000x165, .f32⟩
  | .hbm, ⟨1, _⟩ => ⟨S2x1600000, .i32⟩
  | .hbm, ⟨2, _⟩ => ⟨S165x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x2, .f32⟩
  | .hbm, ⟨7, _⟩ => ⟨S2, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000, .f32⟩
  | .hbm, ⟨40, _⟩ => ⟨S1600000, .f32⟩
  | .hbm, ⟨41, _⟩ => ⟨S100000, .f32⟩
  | .hbm, ⟨42, _⟩ => ⟨S100000x1, .f32⟩
  | .hbm, ⟨43, _⟩ => ⟨S100000x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S1600000x1, .f32⟩
  | .hbm, ⟨54, _⟩ => ⟨S1600000x128, .f32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S1x128, .f32⟩
  | .hbm, ⟨61, _⟩ => ⟨S100000x128, .f32⟩
  | .hbm, ⟨62, _⟩ => ⟨S100000x128, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x128, .f32⟩
  | .hbm, ⟨72, _⟩ => ⟨S1600000x1, .f32⟩
  | .hbm, ⟨73, _⟩ => ⟨S1600000x128, .f32⟩
  | .hbm, ⟨74, _⟩ => ⟨S1600000x128, .f32⟩
  | .hbm, ⟨75, _⟩ => ⟨S_, .f32⟩
  | .hbm, ⟨76, _⟩ => ⟨S100000x128, .f32⟩
  | .hbm, ⟨77, _⟩ => ⟨S1600000x1, .i32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S1x2, .f32⟩
  | .hbm, ⟨82, _⟩ => ⟨S100000x2, .f32⟩
  | .local _ .vmem, ⟨0, _⟩ => ⟨S5000x165, .f32⟩
  | .local _ .vmem, ⟨1, _⟩ => ⟨S5000x165, .f32⟩
  | .local _ .vmem, ⟨2, _⟩ => ⟨S165x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x2, .f32⟩
  | .local _ .vmem, ⟨31, _⟩ => ⟨S1x2, .f32⟩
  | .local _ .vmem, ⟨32, _⟩ => ⟨S5000x2, .f32⟩
  | .local _ .vmem, ⟨33, _⟩ => ⟨S5000x2, .f32⟩
  | _, _ => ⟨S100000x165, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_8 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x165 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S165x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x2 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S5000x165_S5000x165_0_0 : ∀ a, (![0, 0] : Fin 2 → Nat) a + S5000x165.size a ≤ S5000x165.size a
  h_S5000x165 : 0 < S5000x165.numel
  bitsLt_bf16_f32 : FTy.bits .bf16 < FTy.bits .f32
  inb_S165x128_S165x128_0_0 : ∀ a, (![0, 0] : Fin 2 → Nat) a + S165x128.size a ≤ S165x128.size a
  h_S165x128 : 0 < S165x128.numel
  inb_S5000x128_S5000x128_0_0 : ∀ a, (![0, 0] : Fin 2 → Nat) a + S5000x128.size a ≤ S5000x128.size a
  h_S5000x128 : 0 < S5000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  shapeCasts_S2_S1x2 : S2.ShapeCasts S1x2
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x165_S165x128_S5000x128_1_0_0_1_n_n_wf : DotDims.WF S5000x165 S165x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x2_S5000x2_1_0_0_1_n_n_wf : DotDims.WF S5000x128 S128x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x165.size a ≤ S100000x165.size a
  hwx0_0 : ∀ i : grid0.Coords, EltTy.bits .f32 = 32 ∨ (Rect.block (s := S100000x165) S5000x165.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S165x128.size a ≤ S165x128.size a
  hwx0_1 : ∀ i : grid0.Coords, EltTy.bits .f32 = 32 ∨ (Rect.block (s := S165x128) S165x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x2.size a ≤ S128x2.size a
  hwx4_1 : ∀ i : grid4.Coords, EltTy.bits .f32 = 32 ∨ (Rect.block (s := S128x2) S128x2.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x2.size a ≤ S1x2.size a
  hwx4_2 : ∀ i : grid4.Coords, EltTy.bits .f32 = 32 ∨ (Rect.block (s := S1x2) S1x2.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x2.size a ≤ S100000x2.size a
  hwx4_3 : ∀ i : grid4.Coords, EltTy.bits .f32 = 32 ∨ (Rect.block (s := S100000x2) S5000x2.size (cc4_transform_3 i) (hinb4_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x165_S165x128_S5000x128_1_0_0_1_n_n : DotDims S5000x165 S165x128 S5000x128 where
  lhsContracting := [1]
  rhsContracting := [0]
  lhsNonContracting := [0]
  rhsNonContracting := [1]
  lhsBatch := []
  rhsBatch := []
  wf := dot_S5000x165_S165x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf

abbrev win0_0 : Pipeline.Window sig grid0 :=
  Pipeline.Window.ofSpec (Memref.whole main_arg0) S5000x165.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S165x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v59) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S1x2.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v61) S5000x2.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x165 : Shape := ⟨2, ![100000, 165]⟩
abbrev S2x1600000 : Shape := ⟨2, ![2, 1600000]⟩
abbrev S165x128 : Shape := ⟨2, ![165, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S100000x128 : Shape := ⟨2, ![100000, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x2 : Shape := ⟨2, ![100000, 2]⟩
abbrev S1x2 : Shape := ⟨2, ![1, 2]⟩

abbrev nBuf : Space → Nat
  | .hbm => 130
  | .vmem => 0
  | .smem => 0
  | _ => 0

abbrev hbmTy0_0 (i : Nat) : BufTy := match i % 128 with
  | 0 => ⟨S100000x165, .f32⟩
  | 1 => ⟨S2x1600000, .i32⟩
  | 2 => ⟨S165x128, .f32⟩
  | 3 => ⟨S128, .f32⟩
  | 4 => ⟨S128x128, .f32⟩
  | 5 => ⟨S128, .f32⟩
  | 6 => ⟨S128x2, .f32⟩
  | 7 => ⟨S2, .f32⟩
  | 8 => ⟨S1x1600000, .i32⟩
  | 9 => ⟨S1600000, .i32⟩
  | 10 => ⟨S1x1600000, .i32⟩
  | 11 => ⟨S1600000, .i32⟩
  | 12 => ⟨S100000x128, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x128, .f32⟩
  | 51 => ⟨S1600000x1, .f32⟩
  | 52 => ⟨S1600000x128, .f32⟩
  | 53 => ⟨S1600000x128, .f32⟩
  | 54 => ⟨S_, .f32⟩
  | 55 => ⟨S100000x128, .f32⟩
  | 56 => ⟨S1600000x1, .i32⟩
  | 57 => ⟨S100000x128, .f32⟩
  | 58 => ⟨S100000, .f32⟩
  | 59 => ⟨S100000x1, .f32⟩
  | 60 => ⟨S100000x128, .f32⟩
  | 61 => ⟨S100000x128, .f32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x128, .f32⟩
  | 70 => ⟨S_, .f32⟩
  | 71 => ⟨S1600000, .f32⟩
  | 72 => ⟨S_, .f32⟩
  | 73 => ⟨S100000, .f32⟩
  | 74 => ⟨S1600000x1, .i32⟩
  | 75 => ⟨S100000, .f32⟩
  | 76 => ⟨S_, .f32⟩
  | 77 => ⟨S100000, .f32⟩
  | 78 => ⟨S100000, .f32⟩
  | 79 => ⟨S100000, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000, .f32⟩
  | 98 => ⟨S1600000, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x128, .f32⟩
  | 108 => ⟨S1600000x1, .f32⟩
  | 109 => ⟨S1600000x128, .f32⟩
  | 110 => ⟨S1600000x128, .f32⟩
  | 111 => ⟨S_, .f32⟩
  | 112 => ⟨S100000x128, .f32⟩
  | 113 => ⟨S1600000x1, .i32⟩
  | 114 => ⟨S100000x128, .f32⟩
  | 115 => ⟨S100000, .f32⟩
  | 116 => ⟨S100000x1, .f32⟩
  | 117 => ⟨S100000x128, .f32⟩
  | 118 => ⟨S100000x128, .f32⟩
  | 119 => ⟨S100000x128, .f32⟩
  | 120 => ⟨S1x128, .f32⟩
  | 121 => ⟨S100000x128, .f32⟩
  | 122 => ⟨S100000x128, .f32⟩
  | 123 => ⟨S_, .f32⟩
  | 124 => ⟨S100000x128, .f32⟩
  | 125 => ⟨S100000x128, .f32⟩
  | 126 => ⟨S100000x2, .f32⟩
  | 127 => ⟨S1x2, .f32⟩
  | _ => ⟨S100000x165, .f32⟩

abbrev hbmTy0_1 (i : Nat) : BufTy := match i % 128 with
  | 0 => ⟨S100000x2, .f32⟩
  | 1 => ⟨S100000x2, .f32⟩
  | _ => ⟨S100000x165, .f32⟩

abbrev hbmTy (i : Nat) : BufTy := match i / 128 with
  | 0 => hbmTy0_0 i
  | 1 => hbmTy0_1 i
  | _ => ⟨S100000x165, .f32⟩

abbrev bufTy : (tb : Table) → Fin (tcTables nBuf tb) → BufTy
  | .hbm, ⟨i, _⟩ => hbmTy i
  | _, _ => ⟨S100000x165, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_c_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_15 : Ref sig .tc := ⟨.hbm, 99, rfl⟩
abbrev main_v72 : Ref sig .tc := ⟨.hbm, 100, rfl⟩
abbrev main_v73 : Ref sig .tc := ⟨.hbm, 101, rfl⟩
abbrev main_c_16 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_17 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_call1_cst : Ref sig .tc := ⟨.hbm, 123, rfl⟩
abbrev main_call1_v0 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x165_S165x128_S100000x128_1_0_0_1_n_n_wf : DotDims.WF S100000x165 S165x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x2_S100000x2_1_0_0_1_n_n_wf : DotDims.WF S100000x128 S128x2 S100000x2 [1] [0] [0] [1] [] []

variable [Facts₀]

def dot_S100000x165_S165x128_S100000x128_1_0_0_1_n_n : DotDims S100000x165 S165x128 S100000x128 where
  lhsContracting := [1]
  rhsContracting := [0]
  lhsNonContracting := [0]
  rhsNonContracting := [1]
  lhsBatch := []
  rhsBatch := []
  wf := dot_S100000x165_S165x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.KernelRun.lean ====
/-
  The idealized kernel's run, with its result named.

  @main is five kernel regions among stretches of host operations. Its run leaves every buffer that outlives a region at
  the contents obtained by folding the stretches and the regions over the launch memory; so the result buffer ends at
  that fold read at the result, and each argument array at its launch contents.
-/
import proofs.«128843_j52518860095815_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_result : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.Run

end
-- ==== Proof.Graph.lean ====
/-
  The graph operations of the program, as functions of the arrays they read, and each stretch of host operations of the
  kernel's @main read at the buffers the later regions and stretches use.

  From the `2 × E` edge array: the source and target endpoint of every edge (`srcOf`, `dstOf`); an endpoint made a
  row number by adding the number of nodes to a negative one (`wrap`); the per-node factor `1/√(in-degree + 1)`
  (`dinvOf`: ones scattered to the targets, one added for the self-loop, the reciprocal square root); an edge's
  weight, the product of its endpoints' factors (`normOf`); the self-loop factor, the square of a node's factor, as
  an `N × 1` column (`selfCol`); and the aggregation of a feature matrix `h` (`aggOf`): row `src e` of `h` scaled by
  edge `e`'s weight, summed into row `dst e`. Each stretch of host operations computes some of these from the buffers
  it finds and leaves every other buffer alone.
-/
import proofs.«128843_j52518860095815_1_alg».proof.Proof.Gen.KernelIdeal.Launch
import Idealize.ShloMosaic.Lib.StableHlo.Run
import Idealize.ShloMosaic.PureOps.Ideal

set_option maxRecDepth 16384
set_option maxHeartbeats 8000000

noncomputable section

namespace Cert.KernelIdeal.Graph

open Cert.KernelIdeal Cert.KernelIdeal.Facts₀
open Idealize.ShloMosaic Idealize.ShloMosaic.TcCoe Idealize.SL.Sem Idealize.ShloMosaic.StableHlo

abbrev EdgeIdx := (⟨S2x1600000, .i32⟩ : BufTy).Contents (Elt Ideal)
abbrev EdgeInt := (⟨S1600000, .i32⟩ : BufTy).Contents (Elt Ideal)
abbrev EdgeVec := (⟨S1600000, .f32⟩ : BufTy).Contents (Elt Ideal)
abbrev NodeVec := (⟨S100000, .f32⟩ : BufTy).Contents (Elt Ideal)
abbrev NodeCol := (⟨S100000x1, .f32⟩ : BufTy).Contents (Elt Ideal)
abbrev NodeMat := (⟨S100000x128, .f32⟩ : BufTy).Contents (Elt Ideal)
abbrev EdgeMat := (⟨S1600000x128, .f32⟩ : BufTy).Contents (Elt Ideal)

/-- The source endpoint of every edge: row 0 of the edge array. -/
def srcOf (ei : EdgeIdx) : EdgeInt :=
  shapeCast S1600000 (extractStridedSlice S1x1600000 ![0, 0] ei slices_S2x1600000_S1x1600000_0_0) shapeCasts_S1x1600000_S1600000

/-- The target endpoint of every edge: row 1 of the edge array. -/
def dstOf (ei : EdgeIdx) : EdgeInt :=
  shapeCast S1600000 (extractStridedSlice S1x1600000 ![1, 0] ei slices_S2x1600000_S1x1600000_1_0) shapeCasts_S1x1600000_S1600000

/-- A negative endpoint counted from the end: the number of nodes added to it. -/
def wrap (v : EdgeInt) : EdgeInt :=
  select (cmpi .slt v (broadcastInDim S1600000 ![] bcast_S_S1600000 (constantI S_ 32 0#32)))
    (addi v (broadcastInDim S1600000 ![] bcast_S_S1600000 (constantI S_ 32 100000#32))) v

/-- The per-node factor `1/√(in-degree + 1)`. -/
def dinvOf (dst : EdgeInt) : NodeVec :=
  Host.rsqrt (F := Ideal) (addf (F := Ideal) (s := S100000) (φ := .f32)
    (Host.scatterAdd (F := Ideal) scatter_S100000_S1600000x1_S1600000_n_0_0_1
      (broadcastInDim S100000 ![] bcast_S_S100000 (constant (F := Ideal) S_ .f32 0x00000000#32))
      (broadcastInDim S1600000x1 ![0] bcast_S1600000_S1600000x1_0 dst)
      (broadcastInDim S1600000 ![] bcast_S_S1600000 (constant (F := Ideal) S_ .f32 0x3F800000#32)))
    (broadcastInDim S100000 ![] bcast_S_S100000 (constant (F := Ideal) S_ .f32 0x3F800000#32)))

/-- An edge's weight: the product of its two endpoints' factors. -/
def normOf (src dst : EdgeInt) : EdgeVec :=
  mulf (F := Ideal) (s := S1600000) (φ := .f32)
    (Host.gather gather_S100000_S1600000x1_S1600000_n_0_n_n_0_1_1 (dinvOf dst)
      (broadcastInDim S1600000x1 ![0] bcast_S1600000_S1600000x1_0 (wrap src)))
    (Host.gather gather_S100000_S1600000x1_S1600000_n_0_n_n_0_1_1 (dinvOf dst)
      (broadcastInDim S1600000x1 ![0] bcast_S1600000_S1600000x1_0 (wrap dst)))

/-- The self-loop factor, the square of a node's factor, as an `N × 1` column. -/
def selfCol (dst : EdgeInt) : NodeCol :=
  broadcastInDim S100000x1 ![0] bcast_S100000_S100000x1_0 (mulf (F := Ideal) (s := S100000) (φ := .f32) (dinvOf dst) (dinvOf dst))

/-- The aggregation of `h` along the edges: row `src e` of `h` scaled by edge `e`'s weight, summed into row `dst e`. -/
def aggOf (src dst : EdgeInt) (nrm : EdgeVec) (h : NodeMat) : NodeMat :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (mulf (F := Ideal) (s := S1600000x128) (φ := .f32)
      (Host.gather gather_S100000x128_S1600000x1_S1600000x128_1_0_n_n_0_1_1128 h
        (broadcastInDim S1600000x1 ![0] bcast_S1600000_S1600000x1_0 (wrap src)))
      (broadcastInDim S1600000x128 ![0, 1] bcast_S1600000x1_S1600000x128_0_1
        (broadcastInDim S1600000x1 ![0] bcast_S1600000_S1600000x1_0 nrm)))

variable (V : Valuation τ sig (Elt Ideal))

/-! ## The first stretch: the graph quantities -/

theorem h0_src : after (Gen.hostOps0 (F := Ideal)) V (Proc.devRef .tc main_v1) = srcOf (V (Proc.devRef .tc main_arg1)) := by
  after_results_simp <;> rfl
theorem h0_dst : after (Gen.hostOps0 (F := Ideal)) V (Proc.devRef .tc main_v3) = dstOf (V (Proc.devRef .tc main_arg1)) := by
  after_results_simp <;> rfl
theorem h0_norm : after (Gen.hostOps0 (F := Ideal)) V (Proc.devRef .tc main_v25)
    = normOf (srcOf (V (Proc.devRef .tc main_arg1))) (dstOf (V (Proc.devRef .tc main_arg1))) := by
  after_results_simp <;> rfl
theorem h0_col : after (Gen.hostOps0 (F := Ideal)) V (Proc.devRef .tc main_v27) = selfCol (dstOf (V (Proc.devRef .tc main_arg1))) := by
  after_results_simp <;> rfl
theorem h0_arg0 : after (Gen.hostOps0 (F := Ideal)) V (Proc.devRef .tc main_arg0) = V (Proc.devRef .tc main_arg0) := by after_results_simp
theorem h0_arg2 : after (Gen.hostOps0 (F := Ideal)) V (Proc.devRef .tc main_arg2) = V (Proc.devRef .tc main_arg2) := by after_results_simp
theorem h0_arg3 : after (Gen.hostOps0 (F := Ideal)) V (Proc.devRef .tc main_arg3) = V (Proc.devRef .tc main_arg3) := by after_results_simp
theorem h0_arg4 : after (Gen.hostOps0 (F := Ideal)) V (Proc.devRef .tc main_arg4) = V (Proc.devRef .tc main_arg4) := by after_results_simp
theorem h0_arg5 : after (Gen.hostOps0 (F := Ideal)) V (Proc.devRef .tc main_arg5) = V (Proc.devRef .tc main_arg5) := by after_results_simp
theorem h0_arg6 : after (Gen.hostOps0 (F := Ideal)) V (Proc.devRef .tc main_arg6) = V (Proc.devRef .tc main_arg6) := by after_results_simp
theorem h0_arg7 : after (Gen.hostOps0 (F := Ideal)) V (Proc.devRef .tc main_arg7) = V (Proc.devRef .tc main_arg7) := by after_results_simp

/-! ## The second stretch: the first layer's aggregation, and its bias as a row -/

theorem h1_agg : after (Gen.hostOps1 (F := Ideal)) V (Proc.devRef .tc main_v41)
    = aggOf (V (Proc.devRef .tc main_v1)) (V (Proc.devRef .tc main_v3)) (V (Proc.devRef .tc main_v25)) (V (Proc.devRef .tc main_v28)) := by
  after_results_simp <;> rfl
theorem h1_bias : after (Gen.hostOps1 (F := Ideal)) V (Proc.devRef .tc main_v42)
    = shapeCast S1x128 (V (Proc.devRef .tc main_arg3)) shapeCasts_S128_S1x128 := by
  after_results_simp <;> rfl
theorem h1_v28 : after (Gen.hostOps1 (F := Ideal)) V (Proc.devRef .tc main_v28) = V (Proc.devRef .tc main_v28) := by after_results_simp
theorem h1_v27 : after (Gen.hostOps1 (F := Ideal)) V (Proc.devRef .tc main_v27) = V (Proc.devRef .tc main_v27) := by after_results_simp
theorem h1_v25 : after (Gen.hostOps1 (F := Ideal)) V (Proc.devRef .tc main_v25) = V (Proc.devRef .tc main_v25) := by after_results_simp
theorem h1_v1 : after (Gen.hostOps1 (F := Ideal)) V (Proc.devRef .tc main_v1) = V (Proc.devRef .tc main_v1) := by after_results_simp
theorem h1_v3 : after (Gen.hostOps1 (F := Ideal)) V (Proc.devRef .tc main_v3) = V (Proc.devRef .tc main_v3) := by after_results_simp
theorem h1_arg4 : after (Gen.hostOps1 (F := Ideal)) V (Proc.devRef .tc main_arg4) = V (Proc.devRef .tc main_arg4) := by after_results_simp
theorem h1_arg5 : after (Gen.hostOps1 (F := Ideal)) V (Proc.devRef .tc main_arg5) = V (Proc.devRef .tc main_arg5) := by after_results_simp
theorem h1_arg6 : after (Gen.hostOps1 (F := Ideal)) V (Proc.devRef .tc main_arg6) = V (Proc.devRef .tc main_arg6) := by after_results_simp
theorem h1_arg7 : after (Gen.hostOps1 (F := Ideal)) V (Proc.devRef .tc main_arg7) = V (Proc.devRef .tc main_arg7) := by after_results_simp

/-! ## The third stretch: the second layer's aggregation, and its bias as a row -/

theorem h3_agg : after (Gen.hostOps3 (F := Ideal)) V (Proc.devRef .tc main_v57)
    = aggOf (V (Proc.devRef .tc main_v1)) (V (Proc.devRef .tc main_v3)) (V (Proc.devRef .tc main_v25)) (V (Proc.devRef .tc main_v44)) := by
  after_results_simp <;> rfl
theorem h3_bias : after (Gen.hostOps3 (F := Ideal)) V (Proc.devRef .tc main_v58)
    = shapeCast S1x128 (V (Proc.devRef .tc main_arg5)) shapeCasts_S128_S1x128 := by
  after_results_simp <;> rfl
theorem h3_v44 : after (Gen.hostOps3 (F := Ideal)) V (Proc.devRef .tc main_v44) = V (Proc.devRef .tc main_v44) := by after_results_simp
theorem h3_v27 : after (Gen.hostOps3 (F := Ideal)) V (Proc.devRef .tc main_v27) = V (Proc.devRef .tc main_v27) := by after_results_simp
theorem h3_arg6 : after (Gen.hostOps3 (F := Ideal)) V (Proc.devRef .tc main_arg6) = V (Proc.devRef .tc main_arg6) := by after_results_simp
theorem h3_arg7 : after (Gen.hostOps3 (F := Ideal)) V (Proc.devRef .tc main_arg7) = V (Proc.devRef .tc main_arg7) := by after_results_simp

/-! ## The last stretch: the output bias as a row -/

theorem h4_bias : after (Gen.hostOps4 (F := Ideal)) V (Proc.devRef .tc main_v60)
    = shapeCast S1x2 (V (Proc.devRef .tc main_arg7)) shapeCasts_S2_S1x2 := by
  after_results_simp <;> rfl
theorem h4_v59 : after (Gen.hostOps4 (F := Ideal)) V (Proc.devRef .tc main_v59) = V (Proc.devRef .tc main_v59) := by after_results_simp
theorem h4_arg6 : after (Gen.hostOps4 (F := Ideal)) V (Proc.devRef .tc main_arg6) = V (Proc.devRef .tc main_arg6) := by after_results_simp

end Cert.KernelIdeal.Graph

end
-- ==== Proof.LibMatProd.lean ====
/-
  GENERAL LEMMAS: a plain matrix product, written two ways, read at the ideal values.

  The product of an `R × K` matrix `X` with a `K × N` matrix `W` has entry `(r, q)` equal to
  `∑ k, X (r, k) · W (k, q)`, a sum of `K` products of extended reals (`matProd`).
  Both ways a program can write that product read, at `Ideal`, as this same sum:

  * a matrix unit's `matmul` accumulated into a zero splat (`matmul_zero_eq`), and
  * the host's `dot_general` (`dotGeneral_eq`),

  for ANY dimension record that contracts the left operand's axis 1 with the right operand's axis 0 and keeps
  the other two axes in order, whatever the operands' float formats, precision and schedule. That the record does
  so is stated as four equations of coordinate values (`Contracts`), which a literal record proves by unfolding
  (two by `DotDims.lhsIdx_val_of_single` / `rhsIdx_val_of_single`, two by `dif_neg` / `dif_pos` on its literal
  axis lists). Nothing here needs a finiteness hypothesis: the two sides are the same sum of the same products,
  term by term. Imports the library only.
-/
import Idealize.ShloMosaic.PureOps.Ideal.Laws
import Idealize.ShloMosaic.Lib.ValueIdx

noncomputable section

open scoped BigOperators

namespace Cert.Linear

open Idealize.ShloMosaic Idealize.ShloMosaic.ValueIdx

/-- The shape of a matrix of `a` rows and `b` columns. -/
abbrev Mat (a b : Nat) : Shape := ⟨2, ![a, b]⟩

/-- `X · W`, entry by entry: row `r` of `X` against column `q` of `W`. -/
def matProd {R K N : Nat} (X : (Mat R K).Idx → EReal) (W : (Mat K N).Idx → EReal) : (Mat R N).Idx → EReal :=
  fun i => ∑ k : Fin K, X (ix2 (n0 := R) (n1 := K) (i 0) k) * W (ix2 (n0 := K) (n1 := N) k (i 1))

/-- A dimension record for `[R,K] × [K,N] → [R,N]` that contracts the left operand's columns with the right
    operand's rows: one contracted axis of extent `K`, and at result index `i` and contraction index `q` the left
    operand is read at `(i 0, q)` and the right one at `(q, i 1)`. -/
structure Contracts {R K N : Nat} (d : DotDims (Mat R K) (Mat K N) (Mat R N)) : Prop where
  rank : d.contr.rank = 1
  size : d.contr.size ⟨0, by omega⟩ = K
  lhs0 : ∀ (i : (Mat R N).Idx) (q : d.contr.Idx), (d.lhsIdx i q 0).val = (i 0).val
  lhs1 : ∀ (i : (Mat R N).Idx) (q : d.contr.Idx), (d.lhsIdx i q 1).val = (q ⟨0, by omega⟩).val
  rhs0 : ∀ (i : (Mat R N).Idx) (q : d.contr.Idx), (d.rhsIdx i q 0).val = (q ⟨0, by omega⟩).val
  rhs1 : ∀ (i : (Mat R N).Idx) (q : d.contr.Idx), (d.rhsIdx i q 1).val = (i 1).val

/-- The sum over such a record's contraction index of the operands' products is the sum over `k < K` of
    `X (i 0, k) · W (k, i 1)`: the contraction index is its one coordinate. -/
theorem contraction_sum {R K N : Nat} {d : DotDims (Mat R K) (Mat K N) (Mat R N)} (h : Contracts d)
    (X : (Mat R K).Idx → EReal) (W : (Mat K N).Idx → EReal) (i : (Mat R N).Idx) :
    ∑ q : d.contr.Idx, X (d.lhsIdx i q) * W (d.rhsIdx i q) = matProd X W i := by
  unfold matProd
  rw [← Equiv.sum_comp (contrEquiv1 d K h.rank h.size).symm]
  refine Finset.sum_congr rfl fun k _ => ?_
  have hk := contrEquiv1_symm_val d K h.rank h.size k
  have el : d.lhsIdx i ((contrEquiv1 d K h.rank h.size).symm k) = ix2 (n0 := R) (n1 := K) (i 0) k :=
    funext fun a => Fin.ext (by
      match a with
      | ⟨0, _⟩ => exact h.lhs0 _ _
      | ⟨1, _⟩ => exact (h.lhs1 _ _).trans hk)
  have er : d.rhsIdx i ((contrEquiv1 d K h.rank h.size).symm k) = ix2 (n0 := K) (n1 := N) k (i 1) :=
    funext fun a => Fin.ext (by
      match a with
      | ⟨0, _⟩ => exact (h.rhs0 _ _).trans hk
      | ⟨1, _⟩ => exact h.rhs1 _ _)
  rw [el, er]

/-- A matrix unit's product accumulated into the zero splat is `X · W`, whatever the operands' float formats. -/
theorem matmul_zero_eq {R K N : Nat} {φ₁ φ₂ : FTy} {d : DotDims (Mat R K) (Mat K N) (Mat R N)} (h : Contracts d)
    (prec : Option ContractPrecision) (X : FVec Ideal (Mat R K) φ₁) (W : FVec Ideal (Mat K N) φ₂) :
    FloatOps.matmul d prec X W (constant (F := Ideal) (Mat R N) .f32 0x00000000#32) = matProd X W :=
  funext fun i => (Ideal.matmul_constant_zero_apply d prec X W i).trans (contraction_sum h X W i)

/-- The host's `dot_general` is `X · W`, whatever its precision and schedule. -/
theorem dotGeneral_eq {R K N : Nat} {φ₁ φ₂ : FTy} {d : DotDims (Mat R K) (Mat K N) (Mat R N)} (h : Contracts d)
    (prec : Option ContractPrecision) (sched : HostSchedule) (X : FVec Ideal (Mat R K) φ₁) (W : FVec Ideal (Mat K N) φ₂) :
    FloatOps.dotGeneral d prec sched X W = matProd X W :=
  funext fun i => (Ideal.dotGeneral_apply d prec sched X W i).trans (contraction_sum h X W i)

end Cert.Linear

end
-- ==== Proof.LibRowBlock.lean ====
/-
  GENERAL LEMMAS: a matrix product read one block of rows at a time, and a row vector added to every row.

  * `matProd_of_rows`: entry `j` of `x · w` is entry `i` of `X · W` as soon as row `j 0` of `x` is row `i 0` of `X` and
    column `j 1` of `w` is column `i 1` of `W` — what a kernel that multiplies a block of rows at each grid point
    needs against ONE whole product (a row of a product depends on that row of the left operand only).
  * `rowBiasMax`: a `1 × K` row added to every row of an `R × K` matrix, then the maximum with a constant, entry by
    entry; `rowBiasMax_of_vector_ops` reads the vector operations `max (x + broadcast b) (splat z)` as it, and
    `rowBiasMax_of_host_ops` reads the host's two `broadcast_in_dim`s of a length-`K` vector as it (at the vector
    reshaped to one row).

  Everything is over the extended reals with no finiteness hypothesis. Imports the library and `LibMatProd.lean`.
-/
import proofs.«128843_j52518860095815_1_alg».proof.Proof.LibMatProd
import Idealize.ShloMosaic.Lib.ValueLayout
import Idealize.ShloMosaic.Lib.Pipeline.Value

noncomputable section

open scoped BigOperators

namespace Cert.Linear

open Idealize.ShloMosaic Idealize.ShloMosaic.ValueIdx

/-- Entry `j` of `x · w` is entry `i` of `X · W` when row `j 0` of `x` is row `i 0` of `X` and column `j 1` of `w` is
    column `i 1` of `W`. -/
theorem matProd_of_rows {R r K N n : Nat} (X : (Mat R K).Idx → EReal) (W : (Mat K N).Idx → EReal)
    (x : (Mat r K).Idx → EReal) (w : (Mat K n).Idx → EReal) (j : (Mat r n).Idx) (i : (Mat R N).Idx)
    (hx : ∀ k : Fin K, x (ix2 (n0 := r) (n1 := K) (j 0) k) = X (ix2 (n0 := R) (n1 := K) (i 0) k))
    (hw : ∀ k : Fin K, w (ix2 (n0 := K) (n1 := n) k (j 1)) = W (ix2 (n0 := K) (n1 := N) k (i 1))) :
    matProd x w j = matProd X W i := by
  unfold matProd
  exact Finset.sum_congr rfl fun k _ => by rw [hx k, hw k]

/-- A `1 × K` row `B` added to every row of `A`, then the maximum with `z`. -/
def rowBiasMax {R K : Nat} (A : (Mat R K).Idx → EReal) (B : (Mat 1 K).Idx → EReal) (z : EReal) : (Mat R K).Idx → EReal :=
  fun i => max (A i + B (ix2 (n0 := 1) (n1 := K) 0 (i 1))) z

/-- The vector operations `max (x + broadcast b) (splat z)` over an `R × K` block `x` and a `1 × K` row `b` (each first
    cast to its own shape, as a kernel body spells a broadcasting add) are `rowBiasMax x b z`. -/
theorem rowBiasMax_of_vector_ops {R K : Nat} (x : FVec Ideal (Mat R K) .f32) (b : FVec Ideal (Mat 1 K) .f32) (z : Ideal .f32)
    (h1 : (Mat R K).ShapeCasts (Mat R K)) (h2 : (Mat 1 K).ShapeCasts (Mat 1 K)) (h3 : (Mat 1 K).Broadcasts (Mat R K)) :
    maximumf (addf (shapeCast (Mat R K) x h1) (broadcastTo (Mat R K) (shapeCast (Mat 1 K) b h2) h3)) (broadcast (Mat R K) z)
      = rowBiasMax x b z := by
  rw [shapeCast_self, shapeCast_self]
  funext i
  obtain ⟨p, q, rfl⟩ : ∃ (p : Fin R) (q : Fin K), i = ix2 p q := ⟨i 0, i 1, eq_ix2 i⟩
  show max (x (ix2 p q) + broadcastTo (Mat R K) b h3 (ix2 p q)) z = max (x (ix2 p q) + b (ix2 (0 : Fin 1) q)) z
  rw [broadcastTo_1b_ab_apply b h3 p q]

/-- The host's spelling — a length-`K` vector made a row and then `R` rows by two `broadcast_in_dim`s, added, and the
    maximum with a splat constant — is `rowBiasMax` at the vector reshaped to one row. -/
theorem rowBiasMax_of_host_ops {R K : Nat} (A : FVec Ideal (Mat R K) .f32) (b : FVec Ideal (⟨1, ![K]⟩ : Shape) .f32) (zb : BitVec 32)
    (h1 : (⟨1, ![K]⟩ : Shape).BroadcastsInDim (Mat 1 K) ![1]) (h2 : (Mat 1 K).BroadcastsInDim (Mat R K) ![0, 1])
    (h3 : (⟨0, ![]⟩ : Shape).BroadcastsInDim (Mat R K) ![]) (h4 : (⟨1, ![K]⟩ : Shape).ShapeCasts (Mat 1 K)) :
    maximumf (addf A (broadcastInDim (Mat R K) ![0, 1] h2 (broadcastInDim (Mat 1 K) ![1] h1 b)))
        (broadcastInDim (Mat R K) ![] h3 (constant (F := Ideal) (⟨0, ![]⟩ : Shape) .f32 zb))
      = rowBiasMax A (shapeCast (Mat 1 K) b h4) (Ideal.ofBits .f32 zb) := by
  funext i
  obtain ⟨p, q, rfl⟩ : ∃ (p : Fin R) (q : Fin K), i = ix2 p q := ⟨i 0, i 1, eq_ix2 i⟩
  have e2 : broadcastInDim (Mat R K) ![0, 1] h2 (broadcastInDim (Mat 1 K) ![1] h1 b) (ix2 p q)
      = broadcastInDim (Mat 1 K) ![1] h1 b (ix2 (0 : Fin 1) q) :=
    broadcastInDim_apply ![0, 1] h2 _ (ix2 p q) (ix2 (0 : Fin 1) q) fun a => by
      match a with
      | ⟨0, _⟩ => rfl
      | ⟨1, _⟩ =>
        show q.val = if K = 1 then 0 else q.val
        split
        · have := q.isLt; omega
        · rfl
  have e1 : broadcastInDim (Mat 1 K) ![1] h1 b (ix2 (0 : Fin 1) q) = b (ix1 q) :=
    broadcastInDim_apply ![1] h1 b (ix2 (0 : Fin 1) q) (ix1 q) fun a => by
      match a with
      | ⟨0, _⟩ =>
        show q.val = if K = 1 then 0 else q.val
        split
        · have := q.isLt; omega
        · rfl
  have e3 : broadcastInDim (Mat R K) ![] h3 (constant (F := Ideal) (⟨0, ![]⟩ : Shape) .f32 zb) (ix2 p q) = Ideal.ofBits .f32 zb :=
    broadcastInDim_apply ![] h3 _ (ix2 p q) ix0 fun a => a.elim0
  show max (A (ix2 p q) + broadcastInDim (Mat R K) ![0, 1] h2 (broadcastInDim (Mat 1 K) ![1] h1 b) (ix2 p q))
      (broadcastInDim (Mat R K) ![] h3 (constant (F := Ideal) (⟨0, ![]⟩ : Shape) .f32 zb) (ix2 p q))
    = max (A (ix2 p q) + shapeCast (Mat 1 K) b h4 (ix2 (0 : Fin 1) q)) (Ideal.ofBits .f32 zb)
  rw [e2, e1, e3, shapeCast_a_1a_apply b h4 0 q]

end Cert.Linear

end
-- ==== Proof.LibDotLists.lean ====
/-
  GENERAL LEMMA: a dimension record whose axis lists are those of a plain matrix product contracts the left operand's
  columns with the right operand's rows.

  A dimension record for `[R,K] × [K,N] → [R,N]` carries six lists of axes. When they are the plain product's — the left
  operand's axis 1 contracted with the right operand's axis 0, the left operand's axis 0 and the right operand's axis 1
  kept in this order, no batch axis — the record reads, at result index `i` and contraction index `q`, the left
  operand at `(i 0, q)` and the right operand at `(q, i 1)`: the four coordinate equations (`Contracts`) under which a
  matrix unit's product into a zero accumulator and the host's `dot_general` are both the plain sum of products
  `matProd`. A record written out with literal lists meets the six hypotheses by `rfl`.
-/
import proofs.«128843_j52518860095815_1_alg».proof.Proof.LibMatProd
import Idealize.ShloMosaic.Lib.Pipeline.Value
import Idealize.ShloMosaic.Lib.ValueIdx

noncomputable section

namespace Cert.Linear

open Idealize.ShloMosaic Idealize.ShloMosaic.ValueIdx

/-- A dimension record whose axis lists are those of a plain product — the left operand's columns contracted with the
    right operand's rows, the left operand's rows and the right operand's columns kept in this order, no batch axis —
    reads its operands at `(i 0, q)` and `(q, i 1)`. -/
theorem contracts_of_lists {R K N : Nat} (d : DotDims (Mat R K) (Mat K N) (Mat R N))
    (h1 : d.lhsContracting = [1]) (h2 : d.rhsContracting = [0]) (h3 : d.lhsNonContracting = [0])
    (h4 : d.rhsNonContracting = [1]) (h5 : d.lhsBatch = []) (h6 : d.rhsBatch = []) : Contracts d where
  rank := by rw [d.rank_contr, h1]; rfl
  size := by
    rw [d.size_contr 0 (by rw [h1]; exact Nat.one_pos), List.getElem_of_eq h1]
    rfl
  lhs0 := fun i q => by
    unfold DotDims.lhsIdx
    rw [dif_neg (by rw [h5]; exact List.not_mem_nil), dif_pos (by rw [h3]; exact List.mem_singleton.mpr rfl)]
    simp only [Fin.val_cast]
    have key : ∀ (p r : Nat) (hp : p < (Mat R N).rank) (hr : r < (Mat R N).rank), p = r → (i ⟨p, hp⟩).val = (i ⟨r, hr⟩).val :=
      fun p r hp hr h => by subst h; rfl
    exact key _ _ _ _ (by simp [h5, h3])
  lhs1 := fun i q => d.lhsIdx_val_of_single h1 i q
  rhs0 := fun i q => d.rhsIdx_val_of_single h2 i q
  rhs1 := fun i q => by
    unfold DotDims.rhsIdx
    rw [dif_neg (by rw [h6]; exact List.not_mem_nil), dif_pos (by rw [h4]; exact List.mem_singleton.mpr rfl)]
    simp only [Fin.val_cast]
    have key : ∀ (p r : Nat) (hp : p < (Mat R N).rank) (hr : r < (Mat R N).rank), p = r → (i ⟨p, hp⟩).val = (i ⟨r, hr⟩).val :=
      fun p r hp hr h => by subst h; rfl
    exact key _ _ _ _ (by simp [h5, h3, h4])

end Cert.Linear

end
-- ==== Proof.Region0.lean ====
/-
  Region 0: the first layer's feature transform, computed one block of 5000 rows per grid point.

  Point `t` multiplies rows `5000 t … 5000 t + 4999` of the node features by the whole weight matrix (both operands
  rounded to bf16 first, which changes nothing at the ideal values) and writes the product back as the same rows of the
  result. A row of a matrix product depends on that row of the left operand only, so every point writes a block of
  rows of the ONE product `X · W`; the twenty blocks tile the result, which therefore ends at `X · W`.
-/
import proofs.«128843_j52518860095815_1_alg».proof.Proof.Gen.KernelIdeal.Frame
import proofs.«128843_j52518860095815_1_alg».proof.Proof.LibRowBlock
import proofs.«128843_j52518860095815_1_alg».proof.Proof.LibDotLists
import Idealize.ShloMosaic.Lib.Pipeline.Value

set_option maxRecDepth 16384

noncomputable section

namespace Cert.KernelIdeal.Region0

open Cert.KernelIdeal Cert.KernelIdeal.Gen Cert.Linear
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's product of its two loaded blocks, both rounded to bf16 and accumulated into zero, is their matrix product. -/
theorem pay_eq (x0 : Vec Ideal S5000x165 .f32) (x1 : Vec Ideal S165x128 .f32) :
    k0_pay1 (F := Ideal) x0 x1 = matProd x0 x1 :=
  matmul_zero_eq (contracts_of_lists dot_S5000x165_S165x128_S5000x128_1_0_0_1_n_n rfl rfl rfl rfl rfl rfl) none
    (truncf .bf16 x0 bitsLt_bf16_f32) (truncf .bf16 x1 bitsLt_bf16_f32)

/-- The printed index maps over the grid: the left operand's and the result's row blocks are point `t`'s, every
    other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the arrays the region finds. -/
theorem flushed_eq (c : Dev nD) (t : Fin cfg0.N) :
    (dat0 (F := Ideal) V c).flushed 2 t
      = ((cfg0.win 2).blk t).view.read (Elt Ideal) (matProd (V c main_arg0) (V c main_arg2)) := by
  show (cfg0.win 2).cut (grid0.coords t) ((dat0 (F := Ideal) V c).after 2 t) = _
  rw [after0_2]
  unfold out0_2
  rw [View.canon_unit_zero hz]
  simp only [View.ld_unit_zero (S := S5000x165) hz, View.ld_unit_zero (S := S165x128) hz]
  rw [pay_eq]
  obtain ⟨e0, e1, e2, e3, e4, e5⟩ := idx_facts t
  funext j
  show matProd (iblk0 V c 0 t) (iblk0 V c 1 t) j
    = matProd (V c main_arg0) (V c main_arg2) (((cfg0.win 2).blk t).view.emb j)
  refine matProd_of_rows (V c main_arg0) (V c main_arg2) (iblk0 V c 0 t) (iblk0 V c 1 t) j
    (((cfg0.win 2).blk t).view.emb j) (fun k => ?_) (fun k => ?_)
  · show V c main_arg0 (((cfg0.win 0).blk t).view.emb (ix2 (j 0) k))
      = V c main_arg0 (ix2 ((((cfg0.win 2).blk t).view.emb j) 0) k)
    refine congrArg (V c main_arg0) (funext fun a => Fin.ext ?_)
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 165 + 1 * k.val = k.val
      omega
  · show V c main_arg2 (((cfg0.win 1).blk t).view.emb (ix2 k (j 1)))
      = V c main_arg2 (ix2 k ((((cfg0.win 2).blk t).view.emb j) 1))
    refine congrArg (V c main_arg2) (funext fun a => Fin.ext ?_)
    match a with
    | ⟨0, _⟩ =>
      show win0_1.index t (0 : Fin 2) * 165 + 1 * k.val = k.val
      omega
    | ⟨1, _⟩ =>
      show win0_1.index t (1 : Fin 2) * 128 + 1 * (j 1).val = win0_2.index t (1 : Fin 2) * 128 + 1 * (j 1).val
      omega

/-- An index of the result is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v28).slice (win0_2.rect t)).set ↔ _
  rw [View.set_slice_whole, Rect.mem_set_unit]
  exact Iff.rfl

/-- Row `r` of the result is in the block of point `r / 5000`. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have ht : (i 0).val / 5000 < 20 := by omega
  obtain ⟨-, -, -, -, e4, e5⟩ := idx_facts ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    rw [e5]
    omega

/-- The region's result array ends at the product of the two arrays it finds. -/
theorem final (c : Dev nD) :
    (dat0 (F := Ideal) V c).arrAt 2 cfg0.N = matProd (V c main_arg0) (V c main_arg2) :=
  (dat0 (F := Ideal) V c).arrAt_eq_of_cover 2 (matProd (V c main_arg0) (V c main_arg2))
    (fun t _ => flushed_eq V c t) cover

end Cert.KernelIdeal.Region0

end
-- ==== Proof.LibSelfLoop.lean ====
/-
  GENERAL LEMMAS: a graph convolution's self-loop combine, and a bias row added to every row, each written two ways.

  * `selfLoopMax A H D B z`: entry `(r, q)` is `max ((A (r, q) + H (r, q) · D (r, 0)) + B (0, q)) z` — an aggregated
    message matrix `A`, the node's own features `H` scaled by a per-row factor held as an `R × 1` column `D`, a
    `1 × K` bias row `B`, and the maximum with a constant `z`. `selfLoopMax_of_vector_ops` reads a kernel body's
    vector operations (each operand first cast to its own shape, the column and the row broadcast to the block) as it;
    `selfLoopMax_of_host_ops` reads the host's spelling (the column and a length-`K` bias vector spread by
    `broadcast_in_dim`, the constant splat) as it, at the vector reshaped to one row.
  * `rowBias A B`: entry `(r, q)` is `A (r, q) + B (0, q)`; `rowBias_of_vector_ops` and `rowBias_of_host_ops` read
    the two spellings of a bias added to every row.
  * `broadcastTo_a1_ab_apply`, `broadcastInDim_a1_ab_apply`, `broadcastInDim_b_1b_apply`,
    `broadcastInDim_1b_ab_apply`, `broadcastInDim_scalar_apply`: the layout forms these use, read at an index.

  Everything is over the extended reals with no finiteness hypothesis: the two spellings are the same expression entry
  by entry. Imports the library only.
-/
import Idealize.ShloMosaic.PureOps.Ideal.Laws
import Idealize.ShloMosaic.Lib.ValueIdx
import Idealize.ShloMosaic.Lib.ValueLayout
import Idealize.ShloMosaic.Lib.Pipeline.Value

noncomputable section

namespace Cert.SelfLoop

open Idealize.ShloMosaic Idealize.ShloMosaic.ValueIdx

/-- The shape of a matrix of `a` rows and `b` columns. -/
abbrev Mat (a b : Nat) : Shape := ⟨2, ![a, b]⟩
/-- The shape of a vector of `a` entries. -/
abbrev Vc (a : Nat) : Shape := ⟨1, ![a]⟩
/-- The shape of a scalar. -/
abbrev Sc : Shape := ⟨0, ![]⟩

variable {α : Type}

/-- An `[a, 1]` column broadcast to `[a, b]` reads, at `(p, q)`, the column's entry of row `p`. -/
theorem broadcastTo_a1_ab_apply {a b : ℕ} (v : (Mat a 1).Idx → α) (h : (Mat a 1).Broadcasts (Mat a b))
    (p : Fin a) (q : Fin b) : broadcastTo (Mat a b) v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The host's `broadcast_in_dim` of an `[a, 1]` column to `[a, b]` along both axes reads, at `(p, q)`, the column's
    entry of row `p`. -/
theorem broadcastInDim_a1_ab_apply {a b : ℕ} (v : (Mat a 1).Idx → α) (h : (Mat a 1).BroadcastsInDim (Mat a b) ![0, 1])
    (p : Fin a) (q : Fin b) : broadcastInDim (Mat a b) ![0, 1] h v (ix2 p q) = v (ix2 p (0 : Fin 1)) :=
  broadcastInDim_apply ![0, 1] h v (ix2 p q) (ix2 p (0 : Fin 1)) fun ax => by
    match ax with
    | ⟨0, _⟩ =>
      show p.val = if a = 1 then 0 else p.val
      split
      · have := p.isLt; omega
      · rfl
    | ⟨1, _⟩ => rfl

/-- The host's `broadcast_in_dim` of a length-`b` vector to one row `[1, b]` reads, at `(0, q)`, the vector at `q`. -/
theorem broadcastInDim_b_1b_apply {b : ℕ} (v : (Vc b).Idx → α) (h : (Vc b).BroadcastsInDim (Mat 1 b) ![1])
    (q : Fin b) : broadcastInDim (Mat 1 b) ![1] h v (ix2 (0 : Fin 1) q) = v (ix1 q) :=
  broadcastInDim_apply ![1] h v (ix2 (0 : Fin 1) q) (ix1 q) fun ax => by
    match ax with
    | ⟨0, _⟩ =>
      show q.val = if b = 1 then 0 else q.val
      split
      · have := q.isLt; omega
      · rfl

/-- The host's `broadcast_in_dim` of one row `[1, b]` to `[a, b]` along both axes reads, at `(p, q)`, the row at `q`. -/
theorem broadcastInDim_1b_ab_apply {a b : ℕ} (v : (Mat 1 b).Idx → α) (h : (Mat 1 b).BroadcastsInDim (Mat a b) ![0, 1])
    (p : Fin a) (q : Fin b) : broadcastInDim (Mat a b) ![0, 1] h v (ix2 p q) = v (ix2 (0 : Fin 1) q) :=
  broadcastInDim_apply ![0, 1] h v (ix2 p q) (ix2 (0 : Fin 1) q) fun ax => by
    match ax with
    | ⟨0, _⟩ => rfl
    | ⟨1, _⟩ =>
      show q.val = if b = 1 then 0 else q.val
      split
      · have := q.isLt; omega
      · rfl

/-- The host's splat of a scalar reads, at any index, the scalar. -/
theorem broadcastInDim_scalar_apply {t : Shape} (v : Sc.Idx → α) (h : Sc.BroadcastsInDim t ![]) (j : t.Idx) :
    broadcastInDim t ![] h v j = v ix0 :=
  broadcastInDim_apply ![] h v j ix0 fun ax => ax.elim0

/-! ## The self-loop combine -/

/-- `max ((A + H · D) + B) z`, entry by entry: `D` an `R × 1` column read at the entry's row, `B` a `1 × K` row
    read at the entry's column. -/
def selfLoopMax {R K : Nat} (A H : (Mat R K).Idx → EReal) (D : (Mat R 1).Idx → EReal) (B : (Mat 1 K).Idx → EReal) (z : EReal) :
    (Mat R K).Idx → EReal :=
  fun i => max ((A i + H i * D (ix2 (n0 := R) (n1 := 1) (i 0) 0)) + B (ix2 (n0 := 1) (n1 := K) 0 (i 1))) z

/-- A kernel body's vector operations `max ((a + h · broadcast d) + broadcast b) (splat z)` over `R × K` blocks `a`,
    `h`, an `R × 1` column `d` and a `1 × K` row `b` (each first cast to its own shape) are `selfLoopMax`. -/
theorem selfLoopMax_of_vector_ops {R K : Nat} (a h : FVec Ideal (Mat R K) .f32) (d : FVec Ideal (Mat R 1) .f32)
    (b : FVec Ideal (Mat 1 K) .f32) (z : Ideal .f32)
    (h1 : (Mat R K).ShapeCasts (Mat R K)) (h2 : (Mat R 1).ShapeCasts (Mat R 1)) (h3 : (Mat R 1).Broadcasts (Mat R K))
    (h4 : (Mat 1 K).ShapeCasts (Mat 1 K)) (h5 : (Mat 1 K).Broadcasts (Mat R K)) :
    maximumf (addf (addf (shapeCast (Mat R K) a h1)
        (mulf (shapeCast (Mat R K) h h1) (broadcastTo (Mat R K) (shapeCast (Mat R 1) d h2) h3)))
        (broadcastTo (Mat R K) (shapeCast (Mat 1 K) b h4) h5)) (broadcast (Mat R K) z)
      = selfLoopMax a h d b z := by
  rw [shapeCast_self, shapeCast_self, shapeCast_self, shapeCast_self]
  funext i
  obtain ⟨p, q, rfl⟩ : ∃ (p : Fin R) (q : Fin K), i = ix2 p q := ⟨i 0, i 1, eq_ix2 i⟩
  show max ((a (ix2 p q) + h (ix2 p q) * broadcastTo (Mat R K) d h3 (ix2 p q)) + broadcastTo (Mat R K) b h5 (ix2 p q)) z
    = max ((a (ix2 p q) + h (ix2 p q) * d (ix2 p (0 : Fin 1))) + b (ix2 (0 : Fin 1) q)) z
  rw [broadcastTo_a1_ab_apply d h3 p q, broadcastTo_1b_ab_apply b h5 p q]

/-- The host's spelling — the column spread over the columns and a length-`K` bias vector made a row and then `R` rows
    by `broadcast_in_dim`s, the sums, and the maximum with a splat constant — is `selfLoopMax` at the vector reshaped to
    one row. -/
theorem selfLoopMax_of_host_ops {R K : Nat} (A H : FVec Ideal (Mat R K) .f32) (D : FVec Ideal (Mat R 1) .f32)
    (b : FVec Ideal (Vc K) .f32) (zb : BitVec 32)
    (h1 : (Mat R 1).BroadcastsInDim (Mat R K) ![0, 1]) (h2 : (Vc K).BroadcastsInDim (Mat 1 K) ![1])
    (h3 : (Mat 1 K).BroadcastsInDim (Mat R K) ![0, 1]) (h4 : Sc.BroadcastsInDim (Mat R K) ![])
    (h5 : (Vc K).ShapeCasts (Mat 1 K)) :
    maximumf (addf (addf A (mulf H (broadcastInDim (Mat R K) ![0, 1] h1 D)))
        (broadcastInDim (Mat R K) ![0, 1] h3 (broadcastInDim (Mat 1 K) ![1] h2 b)))
        (broadcastInDim (Mat R K) ![] h4 (constant (F := Ideal) Sc .f32 zb))
      = selfLoopMax A H D (shapeCast (Mat 1 K) b h5) (Ideal.ofBits .f32 zb) := by
  funext i
  obtain ⟨p, q, rfl⟩ : ∃ (p : Fin R) (q : Fin K), i = ix2 p q := ⟨i 0, i 1, eq_ix2 i⟩
  show max ((A (ix2 p q) + H (ix2 p q) * broadcastInDim (Mat R K) ![0, 1] h1 D (ix2 p q))
        + broadcastInDim (Mat R K) ![0, 1] h3 (broadcastInDim (Mat 1 K) ![1] h2 b) (ix2 p q))
      (broadcastInDim (Mat R K) ![] h4 (constant (F := Ideal) Sc .f32 zb) (ix2 p q))
    = max ((A (ix2 p q) + H (ix2 p q) * D (ix2 p (0 : Fin 1))) + shapeCast (Mat 1 K) b h5 (ix2 (0 : Fin 1) q)) (Ideal.ofBits .f32 zb)
  rw [broadcastInDim_a1_ab_apply D h1 p q, broadcastInDim_1b_ab_apply _ h3 p q, broadcastInDim_b_1b_apply b h2 q,
    broadcastInDim_scalar_apply _ h4, shapeCast_a_1a_apply b h5 0 q]
  rfl

/-! ## A bias row added to every row -/

/-- `A + B`, the `1 × K` row `B` added to every row of `A`. -/
def rowBias {R K : Nat} (A : (Mat R K).Idx → EReal) (B : (Mat 1 K).Idx → EReal) : (Mat R K).Idx → EReal :=
  fun i => A i + B (ix2 (n0 := 1) (n1 := K) 0 (i 1))

/-- A kernel body's `x + broadcast b` over an `R × K` block and a `1 × K` row (cast twice to its own shape) is `rowBias`. -/
theorem rowBias_of_vector_ops {R K : Nat} (x : FVec Ideal (Mat R K) .f32) (b : FVec Ideal (Mat 1 K) .f32)
    (h1 h2 : (Mat 1 K).ShapeCasts (Mat 1 K)) (h3 : (Mat 1 K).Broadcasts (Mat R K)) :
    addf x (broadcastTo (Mat R K) (shapeCast (Mat 1 K) (shapeCast (Mat 1 K) b h1) h2) h3) = rowBias x b := by
  rw [shapeCast_self, shapeCast_self]
  funext i
  obtain ⟨p, q, rfl⟩ : ∃ (p : Fin R) (q : Fin K), i = ix2 p q := ⟨i 0, i 1, eq_ix2 i⟩
  show x (ix2 p q) + broadcastTo (Mat R K) b h3 (ix2 p q) = x (ix2 p q) + b (ix2 (0 : Fin 1) q)
  rw [broadcastTo_1b_ab_apply b h3 p q]

/-- The host's spelling — a length-`K` vector made a row and then `R` rows by two `broadcast_in_dim`s, added — is
    `rowBias` at the vector reshaped to one row. -/
theorem rowBias_of_host_ops {R K : Nat} (A : FVec Ideal (Mat R K) .f32) (b : FVec Ideal (Vc K) .f32)
    (h2 : (Vc K).BroadcastsInDim (Mat 1 K) ![1]) (h3 : (Mat 1 K).BroadcastsInDim (Mat R K) ![0, 1])
    (h5 : (Vc K).ShapeCasts (Mat 1 K)) :
    addf A (broadcastInDim (Mat R K) ![0, 1] h3 (broadcastInDim (Mat 1 K) ![1] h2 b))
      = rowBias A (shapeCast (Mat 1 K) b h5) := by
  funext i
  obtain ⟨p, q, rfl⟩ : ∃ (p : Fin R) (q : Fin K), i = ix2 p q := ⟨i 0, i 1, eq_ix2 i⟩
  show A (ix2 p q) + broadcastInDim (Mat R K) ![0, 1] h3 (broadcastInDim (Mat 1 K) ![1] h2 b) (ix2 p q)
    = A (ix2 p q) + shapeCast (Mat 1 K) b h5 (ix2 (0 : Fin 1) q)
  rw [broadcastInDim_1b_ab_apply _ h3 p q, broadcastInDim_b_1b_apply b h2 q, shapeCast_a_1a_apply b h5 0 q]

end Cert.SelfLoop

end
-- ==== Proof.Region1.lean ====
/-
  Region 1: the first layer's combine, one block of 5000 rows per grid point.

  Point `t` takes rows `5000 t … 5000 t + 4999` of the aggregated messages and of the layer's own features, the same
  rows of the per-node self-loop factor (an `N × 1` column), and the whole `1 × 128` bias row, and writes back
  `max ((A + H · d) + b, 0)` for those rows. Every entry depends on its own row and column only, so every point writes
  a block of rows of ONE whole-array function of the four arrays, and the twenty blocks tile the result.
-/
import proofs.«128843_j52518860095815_1_alg».proof.Proof.Gen.KernelIdeal.Frame
import proofs.«128843_j52518860095815_1_alg».proof.Proof.LibRowBlock
import proofs.«128843_j52518860095815_1_alg».proof.Proof.LibDotLists
import proofs.«128843_j52518860095815_1_alg».proof.Proof.LibSelfLoop
import Idealize.ShloMosaic.Lib.Pipeline.Value

set_option maxRecDepth 16384

noncomputable section

namespace Cert.KernelIdeal.Region1

open Cert.KernelIdeal Cert.KernelIdeal.Gen Cert.Linear Cert.SelfLoop
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The zero the body takes the maximum with. -/
abbrev zero : Ideal .f32 := Scalar.ofBits (F := Ideal) .f32 0x00000000#32

/-- The body's value is the self-loop combine of its four loaded blocks. -/
theorem pay_eq (x0 x1 : Vec Ideal S5000x128 .f32) (x2 : Vec Ideal S5000x1 .f32) (x3 : Vec Ideal S1x128 .f32) :
    k1_pay1 (F := Ideal) x0 x1 x2 x3 = selfLoopMax x0 x1 x2 x3 zero :=
  selfLoopMax_of_vector_ops x0 x1 x2 x3 zero shapeCasts_S5000x128_S5000x128 shapeCasts_S5000x1_S5000x1
    broadcasts_S5000x1_S5000x128 shapeCasts_S1x128_S1x128 broadcasts_S1x128_S5000x128

/-- The printed index maps over the grid. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0 :=
  (by decide +kernel : ∀ t : Fin grid1.N, _)
theorem out_idx : ∀ t : Fin cfg1.N, win1_4.index t (0 : Fin 2) = t.val ∧ win1_4.index t (1 : Fin 2) = 0 :=
  (by decide +kernel : ∀ t : Fin grid1.N, _)

/-- What point `t` writes back is block `t` of the whole-array combine of the arrays the region finds. -/
theorem flushed_eq (c : Dev nD) (t : Fin cfg1.N) :
    (dat1 (F := Ideal) V c).flushed 4 t
      = ((cfg1.win 4).blk t).view.read (Elt Ideal)
          (selfLoopMax (V c main_v41) (V c main_v28) (V c main_v27) (V c main_v42) zero) := by
  show (cfg1.win 4).cut (grid1.coords t) ((dat1 (F := Ideal) V c).after 4 t) = _
  rw [after1_4]
  unfold out1_4
  rw [View.canon_unit_zero hz]
  simp only [View.ld_unit_zero (S := S5000x128) hz, View.ld_unit_zero (S := S5000x1) hz, View.ld_unit_zero (S := S1x128) hz]
  rw [pay_eq]
  obtain ⟨a0, a1, b0, b1, d0, d1, r0, r1⟩ := idx_facts t
  obtain ⟨o0, o1⟩ := out_idx t
  funext j
  have h0 : ((cfg1.win 0).blk t).view.emb j = ((cfg1.win 4).blk t).view.emb j := by
    funext a; apply Fin.ext
    match a with
    | ⟨0, _⟩ =>
      show win1_0.index t (0 : Fin 2) * 5000 + 1 * (j 0).val = win1_4.index t (0 : Fin 2) * 5000 + 1 * (j 0).val
      omega
    | ⟨1, _⟩ =>
      show win1_0.index t (1 : Fin 2) * 128 + 1 * (j 1).val = win1_4.index t (1 : Fin 2) * 128 + 1 * (j 1).val
      omega
  have h1 : ((cfg1.win 1).blk t).view.emb j = ((cfg1.win 4).blk t).view.emb j := by
    funext a; apply Fin.ext
    match a with
    | ⟨0, _⟩ =>
      show win1_1.index t (0 : Fin 2) * 5000 + 1 * (j 0).val = win1_4.index t (0 : Fin 2) * 5000 + 1 * (j 0).val
      omega
    | ⟨1, _⟩ =>
      show win1_1.index t (1 : Fin 2) * 128 + 1 * (j 1).val = win1_4.index t (1 : Fin 2) * 128 + 1 * (j 1).val
      omega
  have h2 : ((cfg1.win 2).blk t).view.emb (ix2 (j 0) (0 : Fin 1))
      = ix2 ((((cfg1.win 4).blk t).view.emb j) 0) (0 : Fin 1) := by
    funext a; apply Fin.ext
    match a with
    | ⟨0, _⟩ =>
      show win1_2.index t (0 : Fin 2) * 5000 + 1 * (j 0).val = win1_4.index t (0 : Fin 2) * 5000 + 1 * (j 0).val
      omega
    | ⟨1, _⟩ =>
      show win1_2.index t (1 : Fin 2) * 1 + 1 * 0 = 0
      omega
  have h3 : ((cfg1.win 3).blk t).view.emb (ix2 (0 : Fin 1) (j 1))
      = ix2 (0 : Fin 1) ((((cfg1.win 4).blk t).view.emb j) 1) := by
    funext a; apply Fin.ext
    match a with
    | ⟨0, _⟩ =>
      show win1_3.index t (0 : Fin 2) * 1 + 1 * 0 = 0
      omega
    | ⟨1, _⟩ =>
      show win1_3.index t (1 : Fin 2) * 128 + 1 * (j 1).val = win1_4.index t (1 : Fin 2) * 128 + 1 * (j 1).val
      omega
  have key : ∀ (A H : S100000x128.Idx → EReal) (D : S100000x1.Idx → EReal) (B : S1x128.Idx → EReal),
      max ((A (((cfg1.win 0).blk t).view.emb j)
          + H (((cfg1.win 1).blk t).view.emb j) * D (((cfg1.win 2).blk t).view.emb (ix2 (j 0) (0 : Fin 1))))
          + B (((cfg1.win 3).blk t).view.emb (ix2 (0 : Fin 1) (j 1)))) (zero : EReal)
      = max ((A (((cfg1.win 4).blk t).view.emb j)
          + H (((cfg1.win 4).blk t).view.emb j) * D (ix2 ((((cfg1.win 4).blk t).view.emb j) 0) (0 : Fin 1)))
          + B (ix2 (0 : Fin 1) ((((cfg1.win 4).blk t).view.emb j) 1))) (zero : EReal) := by
    intro A H D B
    rw [h0, h1, h2, h3]
    rfl
  exact key (V c main_v41) (V c main_v28) (V c main_v27) (V c main_v42)

/-- An index of the result is in point `t`'s block iff each coordinate is in the block's range on its axis. -/
theorem mem_blk (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v43).slice (win1_4.rect t)).set ↔ _
  rw [View.set_slice_whole, Rect.mem_set_unit]
  exact Iff.rfl

/-- Row `r` of the result is in the block of point `r / 5000`. -/
theorem cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have ht : (i 0).val / 5000 < 20 := by omega
  obtain ⟨o0, o1⟩ := out_idx ⟨(i 0).val / 5000, ht⟩
  refine ⟨⟨(i 0).val / 5000, ht⟩, flush1_4 _, ?_⟩
  rw [mem_blk]
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    rw [o0]
    show (i 0).val / 5000 * 5000 ≤ (i 0).val ∧ (i 0).val < (i 0).val / 5000 * 5000 + 5000
    omega
  | ⟨1, _⟩ =>
    show win1_4.index ⟨(i 0).val / 5000, ht⟩ (1 : Fin 2) * 128 ≤ (i 1).val
      ∧ (i 1).val < win1_4.index ⟨(i 0).val / 5000, ht⟩ (1 : Fin 2) * 128 + 128
    rw [o1]
    omega

/-- The region's result array ends at the whole-array combine of the four arrays it finds. -/
theorem final (c : Dev nD) :
    (dat1 (F := Ideal) V c).arrAt 4 cfg1.N = selfLoopMax (V c main_v41) (V c main_v28) (V c main_v27) (V c main_v42) zero :=
  (dat1 (F := Ideal) V c).arrAt_eq_of_cover 4 (selfLoopMax (V c main_v41) (V c main_v28) (V c main_v27) (V c main_v42) zero)
    (fun t _ => flushed_eq V c t) cover

end Cert.KernelIdeal.Region1

end
-- ==== Proof.Region2.lean ====
/-
  Region 2: the second layer's feature transform, one block of 5000 rows per grid point.

  Point `t` multiplies rows `5000 t … 5000 t + 4999` of the first layer's output by the whole second weight matrix
  (both rounded to bf16 first, the identity at the ideal values) and writes the product back as the same rows of the
  result. Every point so writes a block of rows of the one product `H · W`, and the twenty blocks tile the result.
-/
import proofs.«128843_j52518860095815_1_alg».proof.Proof.Gen.KernelIdeal.Frame
import proofs.«128843_j52518860095815_1_alg».proof.Proof.LibRowBlock
import proofs.«128843_j52518860095815_1_alg».proof.Proof.LibDotLists
import proofs.«128843_j52518860095815_1_alg».proof.Proof.LibSelfLoop
import Idealize.ShloMosaic.Lib.Pipeline.Value

set_option maxRecDepth 16384

noncomputable section

namespace Cert.KernelIdeal.Region2

open Cert.KernelIdeal Cert.KernelIdeal.Gen Cert.Linear Cert.SelfLoop
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's product of its two loaded blocks is their matrix product. -/
theorem pay_eq (x0 : Vec Ideal S5000x128 .f32) (x1 : Vec Ideal S128x128 .f32) :
    k2_pay1 (F := Ideal) x0 x1 = matProd x0 x1 :=
  (matmul_zero_eq (contracts_of_lists dot_S5000x128_S128x128_S5000x128_1_0_0_1_n_n rfl rfl rfl rfl rfl rfl) none
    (truncf .bf16 (shapeCast S5000x128 x0 shapeCasts_S5000x128_S5000x128) bitsLt_bf16_f32) (truncf .bf16 x1 bitsLt_bf16_f32)).trans
    (congrArg (fun z : Vec Ideal S5000x128 .f32 => matProd z x1) (shapeCast_self x0 shapeCasts_S5000x128_S5000x128))

/-- The printed index maps over the grid. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0 :=
  (by decide +kernel : ∀ t : Fin grid2.N, _)
theorem out_idx : ∀ t : Fin cfg2.N, win2_2.index t (0 : Fin 2) = t.val ∧ win2_2.index t (1 : Fin 2) = 0 :=
  (by decide +kernel : ∀ t : Fin grid2.N, _)

/-- What point `t` writes back is block `t` of the whole product of the arrays the region finds. -/
theorem flushed_eq (c : Dev nD) (t : Fin cfg2.N) :
    (dat2 (F := Ideal) V c).flushed 2 t
      = ((cfg2.win 2).blk t).view.read (Elt Ideal) (matProd (V c main_v43) (V c main_arg4)) := by
  show (cfg2.win 2).cut (grid2.coords t) ((dat2 (F := Ideal) V c).after 2 t) = _
  rw [after2_2]
  unfold out2_2
  rw [View.canon_unit_zero hz]
  simp only [View.ld_unit_zero (S := S5000x128) hz, View.ld_unit_zero (S := S128x128) hz]
  rw [pay_eq]
  obtain ⟨e0, e1, e2, e3⟩ := idx_facts t
  obtain ⟨e4, e5⟩ := out_idx t
  funext j
  show matProd (iblk2 V c 0 t) (iblk2 V c 1 t) j
    = matProd (V c main_v43) (V c main_arg4) (((cfg2.win 2).blk t).view.emb j)
  refine matProd_of_rows (V c main_v43) (V c main_arg4) (iblk2 V c 0 t) (iblk2 V c 1 t) j
    (((cfg2.win 2).blk t).view.emb j) (fun k => ?_) (fun k => ?_)
  · show V c main_v43 (((cfg2.win 0).blk t).view.emb (ix2 (j 0) k))
      = V c main_v43 (ix2 ((((cfg2.win 2).blk t).view.emb j) 0) k)
    refine congrArg (V c main_v43) (funext fun a => Fin.ext ?_)
    match a with
    | ⟨0, _⟩ =>
      show win2_0.index t (0 : Fin 2) * 5000 + 1 * (j 0).val = win2_2.index t (0 : Fin 2) * 5000 + 1 * (j 0).val
      omega
    | ⟨1, _⟩ =>
      show win2_0.index t (1 : Fin 2) * 128 + 1 * k.val = k.val
      omega
  · show V c main_arg4 (((cfg2.win 1).blk t).view.emb (ix2 k (j 1)))
      = V c main_arg4 (ix2 k ((((cfg2.win 2).blk t).view.emb j) 1))
    refine congrArg (V c main_arg4) (funext fun a => Fin.ext ?_)
    match a with
    | ⟨0, _⟩ =>
      show win2_1.index t (0 : Fin 2) * 128 + 1 * k.val = k.val
      omega
    | ⟨1, _⟩ =>
      show win2_1.index t (1 : Fin 2) * 128 + 1 * (j 1).val = win2_2.index t (1 : Fin 2) * 128 + 1 * (j 1).val
      omega

/-- An index of the result is in point `t`'s block iff each coordinate is in the block's range on its axis. -/
theorem mem_blk (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v44).slice (win2_2.rect t)).set ↔ _
  rw [View.set_slice_whole, Rect.mem_set_unit]
  exact Iff.rfl

/-- Row `r` of the result is in the block of point `r / 5000`. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have ht : (i 0).val / 5000 < 20 := by omega
  obtain ⟨o0, o1⟩ := out_idx ⟨(i 0).val / 5000, ht⟩
  refine ⟨⟨(i 0).val / 5000, ht⟩, flush2_2 _, ?_⟩
  rw [mem_blk]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    rw [o0]
    show (i 0).val / 5000 * 5000 ≤ (i 0).val ∧ (i 0).val < (i 0).val / 5000 * 5000 + 5000
    omega
  | ⟨1, _⟩ =>
    show win2_2.index ⟨(i 0).val / 5000, ht⟩ (1 : Fin 2) * 128 ≤ (i 1).val
      ∧ (i 1).val < win2_2.index ⟨(i 0).val / 5000, ht⟩ (1 : Fin 2) * 128 + 128
    rw [o1]
    omega

/-- The region's result array ends at the product of the two arrays it finds. -/
theorem final (c : Dev nD) :
    (dat2 (F := Ideal) V c).arrAt 2 cfg2.N = matProd (V c main_v43) (V c main_arg4) :=
  (dat2 (F := Ideal) V c).arrAt_eq_of_cover 2 (matProd (V c main_v43) (V c main_arg4))
    (fun t _ => flushed_eq V c t) cover

end Cert.KernelIdeal.Region2

end
-- ==== Proof.Region3.lean ====
/-
  Region 3: the second layer's combine, one block of 5000 rows per grid point.

  Point `t` takes rows `5000 t … 5000 t + 4999` of the aggregated messages and of the layer's own features, the same
  rows of the per-node self-loop factor (an `N × 1` column), and the whole `1 × 128` bias row, and writes back
  `max ((A + H · d) + b, 0)` for those rows. Every entry depends on its own row and column only, so every point writes
  a block of rows of ONE whole-array function of the four arrays, and the twenty blocks tile the result.
-/
import proofs.«128843_j52518860095815_1_alg».proof.Proof.Gen.KernelIdeal.Frame
import proofs.«128843_j52518860095815_1_alg».proof.Proof.LibRowBlock
import proofs.«128843_j52518860095815_1_alg».proof.Proof.LibDotLists
import proofs.«128843_j52518860095815_1_alg».proof.Proof.LibSelfLoop
import Idealize.ShloMosaic.Lib.Pipeline.Value

set_option maxRecDepth 16384

noncomputable section

namespace Cert.KernelIdeal.Region3

open Cert.KernelIdeal Cert.KernelIdeal.Gen Cert.Linear Cert.SelfLoop
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The zero the body takes the maximum with. -/
abbrev zero : Ideal .f32 := Scalar.ofBits (F := Ideal) .f32 0x00000000#32

/-- The body's value is the self-loop combine of its four loaded blocks. -/
theorem pay_eq (x0 x1 : Vec Ideal S5000x128 .f32) (x2 : Vec Ideal S5000x1 .f32) (x3 : Vec Ideal S1x128 .f32) :
    k3_pay1 (F := Ideal) x0 x1 x2 x3 = selfLoopMax x0 x1 x2 x3 zero :=
  selfLoopMax_of_vector_ops x0 x1 x2 x3 zero shapeCasts_S5000x128_S5000x128 shapeCasts_S5000x1_S5000x1
    broadcasts_S5000x1_S5000x128 shapeCasts_S1x128_S1x128 broadcasts_S1x128_S5000x128

/-- The printed index maps over the grid. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0 :=
  (by decide +kernel : ∀ t : Fin grid3.N, _)
theorem out_idx : ∀ t : Fin cfg3.N, win3_4.index t (0 : Fin 2) = t.val ∧ win3_4.index t (1 : Fin 2) = 0 :=
  (by decide +kernel : ∀ t : Fin grid3.N, _)

/-- What point `t` writes back is block `t` of the whole-array combine of the arrays the region finds. -/
theorem flushed_eq (c : Dev nD) (t : Fin cfg3.N) :
    (dat3 (F := Ideal) V c).flushed 4 t
      = ((cfg3.win 4).blk t).view.read (Elt Ideal)
          (selfLoopMax (V c main_v57) (V c main_v44) (V c main_v27) (V c main_v58) zero) := by
  show (cfg3.win 4).cut (grid3.coords t) ((dat3 (F := Ideal) V c).after 4 t) = _
  rw [after3_4]
  unfold out3_4
  rw [View.canon_unit_zero hz]
  simp only [View.ld_unit_zero (S := S5000x128) hz, View.ld_unit_zero (S := S5000x1) hz, View.ld_unit_zero (S := S1x128) hz]
  rw [pay_eq]
  obtain ⟨a0, a1, b0, b1, d0, d1, r0, r1⟩ := idx_facts t
  obtain ⟨o0, o1⟩ := out_idx t
  funext j
  have h0 : ((cfg3.win 0).blk t).view.emb j = ((cfg3.win 4).blk t).view.emb j := by
    funext a; apply Fin.ext
    match a with
    | ⟨0, _⟩ =>
      show win3_0.index t (0 : Fin 2) * 5000 + 1 * (j 0).val = win3_4.index t (0 : Fin 2) * 5000 + 1 * (j 0).val
      omega
    | ⟨1, _⟩ =>
      show win3_0.index t (1 : Fin 2) * 128 + 1 * (j 1).val = win3_4.index t (1 : Fin 2) * 128 + 1 * (j 1).val
      omega
  have h1 : ((cfg3.win 1).blk t).view.emb j = ((cfg3.win 4).blk t).view.emb j := by
    funext a; apply Fin.ext
    match a with
    | ⟨0, _⟩ =>
      show win3_1.index t (0 : Fin 2) * 5000 + 1 * (j 0).val = win3_4.index t (0 : Fin 2) * 5000 + 1 * (j 0).val
      omega
    | ⟨1, _⟩ =>
      show win3_1.index t (1 : Fin 2) * 128 + 1 * (j 1).val = win3_4.index t (1 : Fin 2) * 128 + 1 * (j 1).val
      omega
  have h2 : ((cfg3.win 2).blk t).view.emb (ix2 (j 0) (0 : Fin 1))
      = ix2 ((((cfg3.win 4).blk t).view.emb j) 0) (0 : Fin 1) := by
    funext a; apply Fin.ext
    match a with
    | ⟨0, _⟩ =>
      show win3_2.index t (0 : Fin 2) * 5000 + 1 * (j 0).val = win3_4.index t (0 : Fin 2) * 5000 + 1 * (j 0).val
      omega
    | ⟨1, _⟩ =>
      show win3_2.index t (1 : Fin 2) * 1 + 1 * 0 = 0
      omega
  have h3 : ((cfg3.win 3).blk t).view.emb (ix2 (0 : Fin 1) (j 1))
      = ix2 (0 : Fin 1) ((((cfg3.win 4).blk t).view.emb j) 1) := by
    funext a; apply Fin.ext
    match a with
    | ⟨0, _⟩ =>
      show win3_3.index t (0 : Fin 2) * 1 + 1 * 0 = 0
      omega
    | ⟨1, _⟩ =>
      show win3_3.index t (1 : Fin 2) * 128 + 1 * (j 1).val = win3_4.index t (1 : Fin 2) * 128 + 1 * (j 1).val
      omega
  have key : ∀ (A H : S100000x128.Idx → EReal) (D : S100000x1.Idx → EReal) (B : S1x128.Idx → EReal),
      max ((A (((cfg3.win 0).blk t).view.emb j)
          + H (((cfg3.win 1).blk t).view.emb j) * D (((cfg3.win 2).blk t).view.emb (ix2 (j 0) (0 : Fin 1))))
          + B (((cfg3.win 3).blk t).view.emb (ix2 (0 : Fin 1) (j 1)))) (zero : EReal)
      = max ((A (((cfg3.win 4).blk t).view.emb j)
          + H (((cfg3.win 4).blk t).view.emb j) * D (ix2 ((((cfg3.win 4).blk t).view.emb j) 0) (0 : Fin 1)))
          + B (ix2 (0 : Fin 1) ((((cfg3.win 4).blk t).view.emb j) 1))) (zero : EReal) := by
    intro A H D B
    rw [h0, h1, h2, h3]
    rfl
  exact key (V c main_v57) (V c main_v44) (V c main_v27) (V c main_v58)

/-- An index of the result is in point `t`'s block iff each coordinate is in the block's range on its axis. -/
theorem mem_blk (t : Fin cfg3.N) (i : S100000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v59).slice (win3_4.rect t)).set ↔ _
  rw [View.set_slice_whole, Rect.mem_set_unit]
  exact Iff.rfl

/-- Row `r` of the result is in the block of point `r / 5000`. -/
theorem cover (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  have ht : (i 0).val / 5000 < 20 := by omega
  obtain ⟨o0, o1⟩ := out_idx ⟨(i 0).val / 5000, ht⟩
  refine ⟨⟨(i 0).val / 5000, ht⟩, flush3_4 _, ?_⟩
  rw [mem_blk]
  intro a
  match a with
  | ⟨0, _⟩ =>
    show win3_4.index ⟨(i 0).val / 5000, ht⟩ (0 : Fin 2) * 5000 ≤ (i 0).val
      ∧ (i 0).val < win3_4.index ⟨(i 0).val / 5000, ht⟩ (0 : Fin 2) * 5000 + 5000
    rw [o0]
    show (i 0).val / 5000 * 5000 ≤ (i 0).val ∧ (i 0).val < (i 0).val / 5000 * 5000 + 5000
    omega
  | ⟨1, _⟩ =>
    show win3_4.index ⟨(i 0).val / 5000, ht⟩ (1 : Fin 2) * 128 ≤ (i 1).val
      ∧ (i 1).val < win3_4.index ⟨(i 0).val / 5000, ht⟩ (1 : Fin 2) * 128 + 128
    rw [o1]
    omega

/-- The region's result array ends at the whole-array combine of the four arrays it finds. -/
theorem final (c : Dev nD) :
    (dat3 (F := Ideal) V c).arrAt 4 cfg3.N = selfLoopMax (V c main_v57) (V c main_v44) (V c main_v27) (V c main_v58) zero :=
  (dat3 (F := Ideal) V c).arrAt_eq_of_cover 4 (selfLoopMax (V c main_v57) (V c main_v44) (V c main_v27) (V c main_v58) zero)
    (fun t _ => flushed_eq V c t) cover

end Cert.KernelIdeal.Region3

end
-- ==== Proof.Region4.lean ====
/-
  Region 4: the output head, one block of 5000 rows per grid point.

  Point `t` multiplies rows `5000 t … 5000 t + 4999` of the second layer's output by the whole `128 × 2` weight matrix
  (both rounded to bf16 first, the identity at the ideal values), adds the `1 × 2` bias row to every row, and writes
  the block back. Every point so writes a block of rows of the one array `H · W + b`, and the twenty blocks tile the result.
-/
import proofs.«128843_j52518860095815_1_alg».proof.Proof.Gen.KernelIdeal.Frame
import proofs.«128843_j52518860095815_1_alg».proof.Proof.LibRowBlock
import proofs.«128843_j52518860095815_1_alg».proof.Proof.LibDotLists
import proofs.«128843_j52518860095815_1_alg».proof.Proof.LibSelfLoop
import Idealize.ShloMosaic.Lib.Pipeline.Value

set_option maxRecDepth 16384

noncomputable section

namespace Cert.KernelIdeal.Region4

open Cert.KernelIdeal Cert.KernelIdeal.Gen Cert.Linear Cert.SelfLoop
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's value is the product of its two loaded blocks with the bias row added to every row. -/
theorem pay_eq (x0 : Vec Ideal S5000x128 .f32) (x1 : Vec Ideal S128x2 .f32) (x2 : Vec Ideal S1x2 .f32) :
    k4_pay1 (F := Ideal) x0 x1 x2 = rowBias (matProd x0 x1) x2 :=
  (rowBias_of_vector_ops
    (matmul dot_S5000x128_S128x2_S5000x2_1_0_0_1_n_n none
      (truncf .bf16 (shapeCast S5000x128 x0 shapeCasts_S5000x128_S5000x128) bitsLt_bf16_f32) (truncf .bf16 x1 bitsLt_bf16_f32)
      (constant (F := Ideal) S5000x2 .f32 0x00000000#32))
    x2 shapeCasts_S1x2_S1x2 shapeCasts_S1x2_S1x2 broadcasts_S1x2_S5000x2).trans
  (congrArg (fun z : Vec Ideal S5000x2 .f32 => rowBias z x2)
    ((matmul_zero_eq (contracts_of_lists dot_S5000x128_S128x2_S5000x2_1_0_0_1_n_n rfl rfl rfl rfl rfl rfl) none
      (truncf .bf16 (shapeCast S5000x128 x0 shapeCasts_S5000x128_S5000x128) bitsLt_bf16_f32) (truncf .bf16 x1 bitsLt_bf16_f32)).trans
      (congrArg (fun z : Vec Ideal S5000x128 .f32 => matProd z x1) (shapeCast_self x0 shapeCasts_S5000x128_S5000x128))))

/-- The printed index maps over the grid. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0 :=
  (by decide +kernel : ∀ t : Fin grid4.N, _)
theorem out_idx : ∀ t : Fin cfg4.N, win4_3.index t (0 : Fin 2) = t.val ∧ win4_3.index t (1 : Fin 2) = 0 :=
  (by decide +kernel : ∀ t : Fin grid4.N, _)

/-- What point `t` writes back is block `t` of the one array `H · W + b` of the arrays the region finds. -/
theorem flushed_eq (c : Dev nD) (t : Fin cfg4.N) :
    (dat4 (F := Ideal) V c).flushed 3 t
      = ((cfg4.win 3).blk t).view.read (Elt Ideal) (rowBias (matProd (V c main_v59) (V c main_arg6)) (V c main_v60)) := by
  show (cfg4.win 3).cut (grid4.coords t) ((dat4 (F := Ideal) V c).after 3 t) = _
  rw [after4_3]
  unfold out4_3
  rw [View.canon_unit_zero hz]
  simp only [View.ld_unit_zero (S := S5000x128) hz, View.ld_unit_zero (S := S128x2) hz, View.ld_unit_zero (S := S1x2) hz]
  rw [pay_eq]
  obtain ⟨e0, e1, e2, e3, e6, e7⟩ := idx_facts t
  obtain ⟨e4, e5⟩ := out_idx t
  funext j
  show matProd (iblk4 V c 0 t) (iblk4 V c 1 t) j + iblk4 V c 2 t (ix2 (0 : Fin 1) (j 1))
    = matProd (V c main_v59) (V c main_arg6) (((cfg4.win 3).blk t).view.emb j)
      + V c main_v60 (ix2 (0 : Fin 1) ((((cfg4.win 3).blk t).view.emb j) 1))
  refine congrArg₂ (· + ·) ?_ ?_
  · refine matProd_of_rows (V c main_v59) (V c main_arg6) (iblk4 V c 0 t) (iblk4 V c 1 t) j
      (((cfg4.win 3).blk t).view.emb j) (fun k => ?_) (fun k => ?_)
    · show V c main_v59 (((cfg4.win 0).blk t).view.emb (ix2 (j 0) k))
        = V c main_v59 (ix2 ((((cfg4.win 3).blk t).view.emb j) 0) k)
      refine congrArg (V c main_v59) (funext fun a => Fin.ext ?_)
      match a with
      | ⟨0, _⟩ =>
        show win4_0.index t (0 : Fin 2) * 5000 + 1 * (j 0).val = win4_3.index t (0 : Fin 2) * 5000 + 1 * (j 0).val
        omega
      | ⟨1, _⟩ =>
        show win4_0.index t (1 : Fin 2) * 128 + 1 * k.val = k.val
        omega
    · show V c main_arg6 (((cfg4.win 1).blk t).view.emb (ix2 k (j 1)))
        = V c main_arg6 (ix2 k ((((cfg4.win 3).blk t).view.emb j) 1))
      refine congrArg (V c main_arg6) (funext fun a => Fin.ext ?_)
      match a with
      | ⟨0, _⟩ =>
        show win4_1.index t (0 : Fin 2) * 128 + 1 * k.val = k.val
        omega
      | ⟨1, _⟩ =>
        show win4_1.index t (1 : Fin 2) * 2 + 1 * (j 1).val = win4_3.index t (1 : Fin 2) * 2 + 1 * (j 1).val
        omega
  · show V c main_v60 (((cfg4.win 2).blk t).view.emb (ix2 (0 : Fin 1) (j 1)))
      = V c main_v60 (ix2 (0 : Fin 1) ((((cfg4.win 3).blk t).view.emb j) 1))
    refine congrArg (V c main_v60) (funext fun a => Fin.ext ?_)
    match a with
    | ⟨0, _⟩ =>
      show win4_2.index t (0 : Fin 2) * 1 + 1 * 0 = 0
      omega
    | ⟨1, _⟩ =>
      show win4_2.index t (1 : Fin 2) * 2 + 1 * (j 1).val = win4_3.index t (1 : Fin 2) * 2 + 1 * (j 1).val
      omega

/-- An index of the result is in point `t`'s block iff each coordinate is in the block's range on its axis. -/
theorem mem_blk (t : Fin cfg4.N) (i : S100000x2.Idx) :
    i ∈ ((cfg4.win 3).blk t).view.set ↔ ∀ a : Fin 2, win4_3.index t a * S5000x2.size a ≤ (i a).val
      ∧ (i a).val < win4_3.index t a * S5000x2.size a + S5000x2.size a := by
  show i ∈ ((View.whole main_v61).slice (win4_3.rect t)).set ↔ _
  rw [View.set_slice_whole, Rect.mem_set_unit]
  exact Iff.rfl

/-- Row `r` of the result is in the block of point `r / 5000`. -/
theorem cover (i : S100000x2.Idx) :
    ∃ t : Fin cfg4.N, (cfg4.win 3).flush t = true ∧ i ∈ ((cfg4.win 3).blk t).view.set := by
  have hi0 : (i 0).val < 100000 := (i 0).isLt
  have hi1 : (i 1).val < 2 := (i 1).isLt
  have ht : (i 0).val / 5000 < 20 := by omega
  obtain ⟨o0, o1⟩ := out_idx ⟨(i 0).val / 5000, ht⟩
  refine ⟨⟨(i 0).val / 5000, ht⟩, flush4_3 _, ?_⟩
  rw [mem_blk]
  intro a
  match a with
  | ⟨0, _⟩ =>
    show win4_3.index ⟨(i 0).val / 5000, ht⟩ (0 : Fin 2) * 5000 ≤ (i 0).val
      ∧ (i 0).val < win4_3.index ⟨(i 0).val / 5000, ht⟩ (0 : Fin 2) * 5000 + 5000
    rw [o0]
    show (i 0).val / 5000 * 5000 ≤ (i 0).val ∧ (i 0).val < (i 0).val / 5000 * 5000 + 5000
    omega
  | ⟨1, _⟩ =>
    show win4_3.index ⟨(i 0).val / 5000, ht⟩ (1 : Fin 2) * 2 ≤ (i 1).val
      ∧ (i 1).val < win4_3.index ⟨(i 0).val / 5000, ht⟩ (1 : Fin 2) * 2 + 2
    rw [o1]
    omega

/-- The region's result array ends at `H · W + b` of the arrays it finds. -/
theorem final (c : Dev nD) :
    (dat4 (F := Ideal) V c).arrAt 3 cfg4.N = rowBias (matProd (V c main_v59) (V c main_arg6)) (V c main_v60) :=
  (dat4 (F := Ideal) V c).arrAt_eq_of_cover 3 (rowBias (matProd (V c main_v59) (V c main_arg6)) (V c main_v60))
    (fun t _ => flushed_eq V c t) cover

end Cert.KernelIdeal.Region4

end
-- ==== Proof.KernelWhole.lean ====
/-
  The idealized kernel's result as one function of its eight argument arrays.

  With `E` the edge array, `X` the node features and `W₁ b₁ W₂ b₂ W₃ b₃` the parameters: a layer takes node features
  `h`, forms `p = h · W`, aggregates `p` along the edges with the edges' weights, adds `p` scaled by the self-loop factor
  and the bias row, and takes the maximum with zero (`gcnLayer`); the result is the second layer's output times `W₃`
  plus `b₃` on every row (`gcnOut`). The run's contents at each boundary between a stretch of host operations and a
  region are read one buffer at a time: a stretch computes the graph quantities or an aggregation from the buffers it
  finds, a region leaves its result array at the whole-array function of the arrays it finds, and every other buffer
  a later segment reads is carried along unchanged.
-/
import proofs.«128843_j52518860095815_1_alg».proof.Proof.KernelRun
import proofs.«128843_j52518860095815_1_alg».proof.Proof.Graph
import proofs.«128843_j52518860095815_1_alg».proof.Proof.Region0
import proofs.«128843_j52518860095815_1_alg».proof.Proof.Region1
import proofs.«128843_j52518860095815_1_alg».proof.Proof.Region2
import proofs.«128843_j52518860095815_1_alg».proof.Proof.Region3
import proofs.«128843_j52518860095815_1_alg».proof.Proof.Region4

set_option maxRecDepth 16384

noncomputable section

namespace Cert.KernelIdeal.Whole

open Cert.KernelIdeal Cert.KernelIdeal.Gen Cert.KernelIdeal.Graph Cert.Linear Cert.SelfLoop
open Idealize.ShloMosaic Idealize.ShloMosaic.TcCoe Idealize.ShloMosaic.ValueIdx Idealize.SL.Sem Idealize.ShloMosaic.StableHlo

/-- The zero a layer takes the maximum with. -/
abbrev zero : EReal := Scalar.ofBits (F := Ideal) .f32 0x00000000#32

/-- One graph-convolution layer with its activation: `max ((agg (h · W) + (h · W) · d²) + b, 0)`. -/
def gcnLayer {K : Nat} (ei : EdgeIdx) (h : (Linear.Mat 100000 K).Idx → EReal) (W : (Linear.Mat K 128).Idx → EReal)
    (b : S128.Idx → EReal) : S100000x128.Idx → EReal :=
  selfLoopMax (aggOf (srcOf ei) (dstOf ei) (normOf (srcOf ei) (dstOf ei)) (matProd h W)) (matProd h W)
    (selfCol (dstOf ei)) (shapeCast S1x128 b Facts₀.shapeCasts_S128_S1x128) zero

/-- The whole network: two layers, then the output head `h · W₃ + b₃`. -/
def gcnOut (x : S100000x165.Idx → EReal) (ei : EdgeIdx) (W1 : S165x128.Idx → EReal) (b1 : S128.Idx → EReal)
    (W2 : S128x128.Idx → EReal) (b2 : S128.Idx → EReal) (W3 : S128x2.Idx → EReal) (b3 : S2.Idx → EReal) :
    S100000x2.Idx → EReal :=
  rowBias (matProd (gcnLayer ei (gcnLayer ei x W1 b1) W2 b2) W3) (shapeCast S1x2 b3 Facts₀.shapeCasts_S2_S1x2)

variable (m : (ℓ : Loc nD τ sig) → Buf (Elt Ideal) ℓ) (ρ : Dev nD → PrngReg) (c : Dev nD)

/-! ## After the first stretch -/

theorem w1_src : W1 m ρ c (Proc.devRef .tc main_v1) = (srcOf (m ((c : Thread nD τ).loc main_arg1))) := h0_src (W0 m ρ c)
theorem w1_dst : W1 m ρ c (Proc.devRef .tc main_v3) = (dstOf (m ((c : Thread nD τ).loc main_arg1))) := h0_dst (W0 m ρ c)
theorem w1_norm : W1 m ρ c (Proc.devRef .tc main_v25) = (normOf (srcOf (m ((c : Thread nD τ).loc main_arg1))) (dstOf (m ((c : Thread nD τ).loc main_arg1)))) := h0_norm (W0 m ρ c)
theorem w1_col : W1 m ρ c (Proc.devRef .tc main_v27) = (selfCol (dstOf (m ((c : Thread nD τ).loc main_arg1)))) := h0_col (W0 m ρ c)
theorem w1_arg0 : W1 m ρ c (Proc.devRef .tc main_arg0) = (m ((c : Thread nD τ).loc main_arg0)) := h0_arg0 (W0 m ρ c)
theorem w1_arg2 : W1 m ρ c (Proc.devRef .tc main_arg2) = (m ((c : Thread nD τ).loc main_arg2)) := h0_arg2 (W0 m ρ c)
theorem w1_arg3 : W1 m ρ c (Proc.devRef .tc main_arg3) = (m ((c : Thread nD τ).loc main_arg3)) := h0_arg3 (W0 m ρ c)
theorem w1_arg4 : W1 m ρ c (Proc.devRef .tc main_arg4) = (m ((c : Thread nD τ).loc main_arg4)) := h0_arg4 (W0 m ρ c)
theorem w1_arg5 : W1 m ρ c (Proc.devRef .tc main_arg5) = (m ((c : Thread nD τ).loc main_arg5)) := h0_arg5 (W0 m ρ c)
theorem w1_arg6 : W1 m ρ c (Proc.devRef .tc main_arg6) = (m ((c : Thread nD τ).loc main_arg6)) := h0_arg6 (W0 m ρ c)
theorem w1_arg7 : W1 m ρ c (Proc.devRef .tc main_arg7) = (m ((c : Thread nD τ).loc main_arg7)) := h0_arg7 (W0 m ρ c)

/-! ## After region 0: the first layer's features times the first weights -/

/-- `X · W₁`. -/
abbrev P1 := matProd (m ((c : Thread nD τ).loc main_arg0)) (m ((c : Thread nD τ).loc main_arg2))

theorem w2_v28 : W2 m ρ c (Proc.devRef .tc main_v28) = P1 m c :=
  (W2_arr m ρ c 2).trans ((Region0.final (V1 m ρ) c).trans (congrArg₂ matProd (w1_arg0 m ρ c) (w1_arg2 m ρ c)))
theorem w2_src : W2 m ρ c (Proc.devRef .tc main_v1) = (srcOf (m ((c : Thread nD τ).loc main_arg1))) := (W2_of_ne m ρ c main_v1 (by decide)).trans (w1_src m ρ c)
theorem w2_dst : W2 m ρ c (Proc.devRef .tc main_v3) = (dstOf (m ((c : Thread nD τ).loc main_arg1))) := (W2_of_ne m ρ c main_v3 (by decide)).trans (w1_dst m ρ c)
theorem w2_norm : W2 m ρ c (Proc.devRef .tc main_v25) = (normOf (srcOf (m ((c : Thread nD τ).loc main_arg1))) (dstOf (m ((c : Thread nD τ).loc main_arg1)))) := (W2_of_ne m ρ c main_v25 (by decide)).trans (w1_norm m ρ c)
theorem w2_col : W2 m ρ c (Proc.devRef .tc main_v27) = (selfCol (dstOf (m ((c : Thread nD τ).loc main_arg1)))) := (W2_of_ne m ρ c main_v27 (by decide)).trans (w1_col m ρ c)
theorem w2_arg3 : W2 m ρ c (Proc.devRef .tc main_arg3) = (m ((c : Thread nD τ).loc main_arg3)) := (W2_of_ne m ρ c main_arg3 (by decide)).trans (w1_arg3 m ρ c)
theorem w2_arg4 : W2 m ρ c (Proc.devRef .tc main_arg4) = (m ((c : Thread nD τ).loc main_arg4)) := (W2_of_ne m ρ c main_arg4 (by decide)).trans (w1_arg4 m ρ c)
theorem w2_arg5 : W2 m ρ c (Proc.devRef .tc main_arg5) = (m ((c : Thread nD τ).loc main_arg5)) := (W2_of_ne m ρ c main_arg5 (by decide)).trans (w1_arg5 m ρ c)
theorem w2_arg6 : W2 m ρ c (Proc.devRef .tc main_arg6) = (m ((c : Thread nD τ).loc main_arg6)) := (W2_of_ne m ρ c main_arg6 (by decide)).trans (w1_arg6 m ρ c)
theorem w2_arg7 : W2 m ρ c (Proc.devRef .tc main_arg7) = (m ((c : Thread nD τ).loc main_arg7)) := (W2_of_ne m ρ c main_arg7 (by decide)).trans (w1_arg7 m ρ c)

/-! ## After the second stretch: the first aggregation -/

/-- The aggregation of `X · W₁`. -/
abbrev G1 := aggOf (srcOf (m ((c : Thread nD τ).loc main_arg1))) (dstOf (m ((c : Thread nD τ).loc main_arg1))) (normOf (srcOf (m ((c : Thread nD τ).loc main_arg1))) (dstOf (m ((c : Thread nD τ).loc main_arg1)))) (P1 m c)
/-- The first bias as a row. -/
abbrev R1 := shapeCast S1x128 (m ((c : Thread nD τ).loc main_arg3)) Facts₀.shapeCasts_S128_S1x128

theorem w3_agg : W3 m ρ c (Proc.devRef .tc main_v41) = G1 m c :=
  (h1_agg (W2 m ρ c)).trans (by rw [w2_src, w2_dst, w2_norm, w2_v28])
theorem w3_bias : W3 m ρ c (Proc.devRef .tc main_v42) = R1 m c := (h1_bias (W2 m ρ c)).trans (by rw [w2_arg3])
theorem w3_v28 : W3 m ρ c (Proc.devRef .tc main_v28) = P1 m c := (h1_v28 (W2 m ρ c)).trans (w2_v28 m ρ c)
theorem w3_col : W3 m ρ c (Proc.devRef .tc main_v27) = (selfCol (dstOf (m ((c : Thread nD τ).loc main_arg1)))) := (h1_v27 (W2 m ρ c)).trans (w2_col m ρ c)
theorem w3_src : W3 m ρ c (Proc.devRef .tc main_v1) = (srcOf (m ((c : Thread nD τ).loc main_arg1))) := (h1_v1 (W2 m ρ c)).trans (w2_src m ρ c)
theorem w3_dst : W3 m ρ c (Proc.devRef .tc main_v3) = (dstOf (m ((c : Thread nD τ).loc main_arg1))) := (h1_v3 (W2 m ρ c)).trans (w2_dst m ρ c)
theorem w3_norm : W3 m ρ c (Proc.devRef .tc main_v25) = (normOf (srcOf (m ((c : Thread nD τ).loc main_arg1))) (dstOf (m ((c : Thread nD τ).loc main_arg1)))) := (h1_v25 (W2 m ρ c)).trans (w2_norm m ρ c)
theorem w3_arg4 : W3 m ρ c (Proc.devRef .tc main_arg4) = (m ((c : Thread nD τ).loc main_arg4)) := (h1_arg4 (W2 m ρ c)).trans (w2_arg4 m ρ c)
theorem w3_arg5 : W3 m ρ c (Proc.devRef .tc main_arg5) = (m ((c : Thread nD τ).loc main_arg5)) := (h1_arg5 (W2 m ρ c)).trans (w2_arg5 m ρ c)
theorem w3_arg6 : W3 m ρ c (Proc.devRef .tc main_arg6) = (m ((c : Thread nD τ).loc main_arg6)) := (h1_arg6 (W2 m ρ c)).trans (w2_arg6 m ρ c)
theorem w3_arg7 : W3 m ρ c (Proc.devRef .tc main_arg7) = (m ((c : Thread nD τ).loc main_arg7)) := (h1_arg7 (W2 m ρ c)).trans (w2_arg7 m ρ c)

/-! ## After region 1: the first layer's output -/

/-- The first layer's output. -/
abbrev H1 := selfLoopMax (G1 m c) (P1 m c) (selfCol (dstOf (m ((c : Thread nD τ).loc main_arg1)))) (R1 m c) zero

theorem w4_v43 : W4 m ρ c (Proc.devRef .tc main_v43) = H1 m c :=
  (W4_arr m ρ c 4).trans ((Region1.final (V3 m ρ) c).trans (by
    rw [show V3 m ρ c main_v41 = G1 m c from w3_agg m ρ c, show V3 m ρ c main_v28 = P1 m c from w3_v28 m ρ c,
      show V3 m ρ c main_v27 = (selfCol (dstOf (m ((c : Thread nD τ).loc main_arg1)))) from w3_col m ρ c, show V3 m ρ c main_v42 = R1 m c from w3_bias m ρ c]))
theorem w4_col : W4 m ρ c (Proc.devRef .tc main_v27) = (selfCol (dstOf (m ((c : Thread nD τ).loc main_arg1)))) :=
  (W4_arr m ρ c 2).trans ((((dat1 (V3 m ρ) c).arrAt_in 2 rfl _).trans (A_eq1 (V3 m ρ) c 2)).trans (w3_col m ρ c))
theorem w4_src : W4 m ρ c (Proc.devRef .tc main_v1) = (srcOf (m ((c : Thread nD τ).loc main_arg1))) := (W4_of_ne m ρ c main_v1 (by decide)).trans (w3_src m ρ c)
theorem w4_dst : W4 m ρ c (Proc.devRef .tc main_v3) = (dstOf (m ((c : Thread nD τ).loc main_arg1))) := (W4_of_ne m ρ c main_v3 (by decide)).trans (w3_dst m ρ c)
theorem w4_norm : W4 m ρ c (Proc.devRef .tc main_v25) = (normOf (srcOf (m ((c : Thread nD τ).loc main_arg1))) (dstOf (m ((c : Thread nD τ).loc main_arg1)))) := (W4_of_ne m ρ c main_v25 (by decide)).trans (w3_norm m ρ c)
theorem w4_arg4 : W4 m ρ c (Proc.devRef .tc main_arg4) = (m ((c : Thread nD τ).loc main_arg4)) := (W4_of_ne m ρ c main_arg4 (by decide)).trans (w3_arg4 m ρ c)
theorem w4_arg5 : W4 m ρ c (Proc.devRef .tc main_arg5) = (m ((c : Thread nD τ).loc main_arg5)) := (W4_of_ne m ρ c main_arg5 (by decide)).trans (w3_arg5 m ρ c)
theorem w4_arg6 : W4 m ρ c (Proc.devRef .tc main_arg6) = (m ((c : Thread nD τ).loc main_arg6)) := (W4_of_ne m ρ c main_arg6 (by decide)).trans (w3_arg6 m ρ c)
theorem w4_arg7 : W4 m ρ c (Proc.devRef .tc main_arg7) = (m ((c : Thread nD τ).loc main_arg7)) := (W4_of_ne m ρ c main_arg7 (by decide)).trans (w3_arg7 m ρ c)

/-! ## After region 2: the first layer's output times the second weights -/

/-- `H₁ · W₂`. -/
abbrev P2 := matProd (H1 m c) (m ((c : Thread nD τ).loc main_arg4))

theorem w5_v44 : W5 m ρ c (Proc.devRef .tc main_v44) = P2 m c :=
  (W5_arr m ρ c 2).trans ((Region2.final (V4 m ρ) c).trans (congrArg₂ matProd (w4_v43 m ρ c) (w4_arg4 m ρ c)))
theorem w5_col : W5 m ρ c (Proc.devRef .tc main_v27) = (selfCol (dstOf (m ((c : Thread nD τ).loc main_arg1)))) := (W5_of_ne m ρ c main_v27 (by decide)).trans (w4_col m ρ c)
theorem w5_src : W5 m ρ c (Proc.devRef .tc main_v1) = (srcOf (m ((c : Thread nD τ).loc main_arg1))) := (W5_of_ne m ρ c main_v1 (by decide)).trans (w4_src m ρ c)
theorem w5_dst : W5 m ρ c (Proc.devRef .tc main_v3) = (dstOf (m ((c : Thread nD τ).loc main_arg1))) := (W5_of_ne m ρ c main_v3 (by decide)).trans (w4_dst m ρ c)
theorem w5_norm : W5 m ρ c (Proc.devRef .tc main_v25) = (normOf (srcOf (m ((c : Thread nD τ).loc main_arg1))) (dstOf (m ((c : Thread nD τ).loc main_arg1)))) := (W5_of_ne m ρ c main_v25 (by decide)).trans (w4_norm m ρ c)
theorem w5_arg5 : W5 m ρ c (Proc.devRef .tc main_arg5) = (m ((c : Thread nD τ).loc main_arg5)) := (W5_of_ne m ρ c main_arg5 (by decide)).trans (w4_arg5 m ρ c)
theorem w5_arg6 : W5 m ρ c (Proc.devRef .tc main_arg6) = (m ((c : Thread nD τ).loc main_arg6)) := (W5_of_ne m ρ c main_arg6 (by decide)).trans (w4_arg6 m ρ c)
theorem w5_arg7 : W5 m ρ c (Proc.devRef .tc main_arg7) = (m ((c : Thread nD τ).loc main_arg7)) := (W5_of_ne m ρ c main_arg7 (by decide)).trans (w4_arg7 m ρ c)

/-! ## After the third stretch: the second aggregation -/

/-- The aggregation of `H₁ · W₂`. -/
abbrev G2 := aggOf (srcOf (m ((c : Thread nD τ).loc main_arg1))) (dstOf (m ((c : Thread nD τ).loc main_arg1))) (normOf (srcOf (m ((c : Thread nD τ).loc main_arg1))) (dstOf (m ((c : Thread nD τ).loc main_arg1)))) (P2 m c)
/-- The second bias as a row. -/
abbrev R2 := shapeCast S1x128 (m ((c : Thread nD τ).loc main_arg5)) Facts₀.shapeCasts_S128_S1x128

theorem w6_agg : W6 m ρ c (Proc.devRef .tc main_v57) = G2 m c :=
  (h3_agg (W5 m ρ c)).trans (by rw [w5_src, w5_dst, w5_norm, w5_v44])
theorem w6_bias : W6 m ρ c (Proc.devRef .tc main_v58) = R2 m c := (h3_bias (W5 m ρ c)).trans (by rw [w5_arg5])
theorem w6_v44 : W6 m ρ c (Proc.devRef .tc main_v44) = P2 m c := (h3_v44 (W5 m ρ c)).trans (w5_v44 m ρ c)
theorem w6_col : W6 m ρ c (Proc.devRef .tc main_v27) = (selfCol (dstOf (m ((c : Thread nD τ).loc main_arg1)))) := (h3_v27 (W5 m ρ c)).trans (w5_col m ρ c)
theorem w6_arg6 : W6 m ρ c (Proc.devRef .tc main_arg6) = (m ((c : Thread nD τ).loc main_arg6)) := (h3_arg6 (W5 m ρ c)).trans (w5_arg6 m ρ c)
theorem w6_arg7 : W6 m ρ c (Proc.devRef .tc main_arg7) = (m ((c : Thread nD τ).loc main_arg7)) := (h3_arg7 (W5 m ρ c)).trans (w5_arg7 m ρ c)

/-! ## After region 3: the second layer's output -/

/-- The second layer's output. -/
abbrev H2 := selfLoopMax (G2 m c) (P2 m c) (selfCol (dstOf (m ((c : Thread nD τ).loc main_arg1)))) (R2 m c) zero

theorem w7_v59 : W7 m ρ c (Proc.devRef .tc main_v59) = H2 m c :=
  (W7_arr m ρ c 4).trans ((Region3.final (V6 m ρ) c).trans (by
    rw [show V6 m ρ c main_v57 = G2 m c from w6_agg m ρ c, show V6 m ρ c main_v44 = P2 m c from w6_v44 m ρ c,
      show V6 m ρ c main_v27 = (selfCol (dstOf (m ((c : Thread nD τ).loc main_arg1)))) from w6_col m ρ c, show V6 m ρ c main_v58 = R2 m c from w6_bias m ρ c]))
theorem w7_arg6 : W7 m ρ c (Proc.devRef .tc main_arg6) = (m ((c : Thread nD τ).loc main_arg6)) := (W7_of_ne m ρ c main_arg6 (by decide)).trans (w6_arg6 m ρ c)
theorem w7_arg7 : W7 m ρ c (Proc.devRef .tc main_arg7) = (m ((c : Thread nD τ).loc main_arg7)) := (W7_of_ne m ρ c main_arg7 (by decide)).trans (w6_arg7 m ρ c)

/-! ## After the last stretch, and after region 4 -/

/-- The output bias as a row. -/
abbrev R3 := shapeCast S1x2 (m ((c : Thread nD τ).loc main_arg7)) Facts₀.shapeCasts_S2_S1x2

theorem w8_bias : W8 m ρ c (Proc.devRef .tc main_v60) = R3 m c := (h4_bias (W7 m ρ c)).trans (by rw [w7_arg7])
theorem w8_v59 : W8 m ρ c (Proc.devRef .tc main_v59) = H2 m c := (h4_v59 (W7 m ρ c)).trans (w7_v59 m ρ c)
theorem w8_arg6 : W8 m ρ c (Proc.devRef .tc main_arg6) = (m ((c : Thread nD τ).loc main_arg6)) := (h4_arg6 (W7 m ρ c)).trans (w7_arg6 m ρ c)

theorem w9_out : W9 m ρ c (Proc.devRef .tc main_v61) = rowBias (matProd (H2 m c) (m ((c : Thread nD τ).loc main_arg6))) (R3 m c) :=
  (W9_arr m ρ c 3).trans ((Region4.final (V8 m ρ) c).trans (by
    rw [show V8 m ρ c main_v59 = H2 m c from w8_v59 m ρ c, show V8 m ρ c main_arg6 = (m ((c : Thread nD τ).loc main_arg6)) from w8_arg6 m ρ c,
      show V8 m ρ c main_v60 = R3 m c from w8_bias m ρ c]))

/-- The result buffer ends at the network's output of the launch arrays. -/
theorem result_eq : W9 m ρ c (Proc.devRef .tc main_v61)
    = gcnOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  w9_out m ρ c

/-- Every weakly fair execution of the idealized kernel terminates, nothing faulting, with its result at the network's
    output of the launch arrays and its arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v61)
        = gcnOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (Run.run_result m ρ)

end Cert.KernelIdeal.Whole

end
-- ==== Proof.Bridge.lean ====
/-
  The reference computes the same network.

  The reference spells a layer with host operations only: `p = dot_general h W`, the aggregation of `p` along the edges,
  `p` times the self-loop column spread over the columns, the bias vector spread over the rows, and the maximum with a
  splat zero (`hostLayer`); its result is the second layer's output through one more `dot_general` plus the output bias
  spread over the rows (`hostOut`). The graph operations are the kernel's own, with the same dimension numbers. At the
  ideal values a `dot_general` contracting columns with rows is the plain matrix product, and the broadcast sums are the
  self-loop combine and the bias row entry by entry; so `hostLayer` is `gcnLayer` and `hostOut` is `gcnOut`. No
  finiteness is needed: the two sides are the same expression of the same sums.
-/
import proofs.«128843_j52518860095815_1_alg».proof.Proof.Gen.ReferenceIdeal.Run
import proofs.«128843_j52518860095815_1_alg».proof.Proof.KernelWhole

set_option maxRecDepth 65536
set_option maxHeartbeats 8000000

noncomputable section

namespace Cert.ReferenceIdeal.Bridge

open Cert.ReferenceIdeal Cert.ReferenceIdeal.Facts₀
open Cert.Linear Cert.SelfLoop
open Idealize.ShloMosaic Idealize.ShloMosaic.TcCoe Idealize.ShloMosaic.ValueIdx Idealize.SL.Sem

open Cert.KernelIdeal.Graph (EdgeIdx srcOf dstOf normOf selfCol aggOf)
open Cert.KernelIdeal.Whole (gcnLayer gcnOut zero)

/-- A layer as the reference spells it, for a `dot_general` with dimension numbers `d`. -/
def hostLayer {K : Nat} (d : DotDims (Linear.Mat 100000 K) (Linear.Mat K 128) (Linear.Mat 100000 128)) (ei : EdgeIdx)
    (h : (Linear.Mat 100000 K).Idx → EReal) (W : (Linear.Mat K 128).Idx → EReal) (b : S128.Idx → EReal) :
    S100000x128.Idx → EReal :=
  maximumf (F := Ideal) (s := S100000x128) (φ := .f32)
    (addf (F := Ideal) (s := S100000x128) (φ := .f32)
      (addf (F := Ideal) (s := S100000x128) (φ := .f32)
        (aggOf (srcOf ei) (dstOf ei) (normOf (srcOf ei) (dstOf ei)) (Host.dotGeneral (F := Ideal) (φ₁ := .f32) (φ₂ := .f32) d none h W))
        (mulf (F := Ideal) (s := S100000x128) (φ := .f32) (Host.dotGeneral (F := Ideal) (φ₁ := .f32) (φ₂ := .f32) d none h W)
          (broadcastInDim S100000x128 ![0, 1] bcast_S100000x1_S100000x128_0_1 (selfCol (dstOf ei)))))
      (broadcastInDim S100000x128 ![0, 1] bcast_S1x128_S100000x128_0_1 (broadcastInDim S1x128 ![1] bcast_S128_S1x128_1 b)))
    (broadcastInDim S100000x128 ![] bcast_S_S100000x128 (constant (F := Ideal) S_ .f32 0x00000000#32))

/-- The reference's layer is the network's layer, for any dimension numbers contracting columns with rows. -/
theorem hostLayer_eq {K : Nat} (d : DotDims (Linear.Mat 100000 K) (Linear.Mat K 128) (Linear.Mat 100000 128))
    (hd : Contracts d) (ei : EdgeIdx) (h : (Linear.Mat 100000 K).Idx → EReal) (W : (Linear.Mat K 128).Idx → EReal)
    (b : S128.Idx → EReal) : hostLayer d ei h W b = gcnLayer ei h W b := by
  have e : Host.dotGeneral (F := Ideal) (φ₁ := .f32) (φ₂ := .f32) d none h W = matProd h W := dotGeneral_eq hd none _ h W
  unfold hostLayer gcnLayer
  rw [e]
  exact selfLoopMax_of_host_ops _ _ _ b 0x00000000#32 bcast_S100000x1_S100000x128_0_1 bcast_S128_S1x128_1
    bcast_S1x128_S100000x128_0_1 bcast_S_S100000x128 Cert.KernelIdeal.Facts₀.shapeCasts_S128_S1x128

/-- The whole network as the reference spells it. -/
def hostOut (x : S100000x165.Idx → EReal) (ei : EdgeIdx) (W1 : S165x128.Idx → EReal) (b1 : S128.Idx → EReal)
    (W2 : S128x128.Idx → EReal) (b2 : S128.Idx → EReal) (W3 : S128x2.Idx → EReal) (b3 : S2.Idx → EReal) :
    S100000x2.Idx → EReal :=
  addf (F := Ideal) (s := S100000x2) (φ := .f32)
    (Host.dotGeneral (F := Ideal) (φ₁ := .f32) (φ₂ := .f32) dot_S100000x128_S128x2_S100000x2_1_0_0_1_n_n none
      (hostLayer dot_S100000x128_S128x128_S100000x128_1_0_0_1_n_n ei
        (hostLayer dot_S100000x165_S165x128_S100000x128_1_0_0_1_n_n ei x W1 b1) W2 b2) W3)
    (broadcastInDim S100000x2 ![0, 1] bcast_S1x2_S100000x2_0_1 (broadcastInDim S1x2 ![1] bcast_S2_S1x2_1 b3))

/-- The reference's network is the kernel's. -/
theorem hostOut_eq (x : S100000x165.Idx → EReal) (ei : EdgeIdx) (W1 : S165x128.Idx → EReal) (b1 : S128.Idx → EReal)
    (W2 : S128x128.Idx → EReal) (b2 : S128.Idx → EReal) (W3 : S128x2.Idx → EReal) (b3 : S2.Idx → EReal) :
    hostOut x ei W1 b1 W2 b2 W3 b3 = gcnOut x ei W1 b1 W2 b2 W3 b3 := by
  unfold hostOut gcnOut
  rw [hostLayer_eq _ (contracts_of_lists dot_S100000x165_S165x128_S100000x128_1_0_0_1_n_n rfl rfl rfl rfl rfl rfl),
    hostLayer_eq _ (contracts_of_lists dot_S100000x128_S128x128_S100000x128_1_0_0_1_n_n rfl rfl rfl rfl rfl rfl)]
  have e : Host.dotGeneral (F := Ideal) (φ₁ := .f32) (φ₂ := .f32) dot_S100000x128_S128x2_S100000x2_1_0_0_1_n_n none
      (gcnLayer ei (gcnLayer ei x W1 b1) W2 b2) W3 = matProd (gcnLayer ei (gcnLayer ei x W1 b1) W2 b2) W3 :=
    dotGeneral_eq (contracts_of_lists dot_S100000x128_S128x2_S100000x2_1_0_0_1_n_n rfl rfl rfl rfl rfl rfl) none _ _ W3
  rw [e]
  exact rowBias_of_host_ops _ b3 bcast_S2_S1x2_1 bcast_S1x2_S100000x2_0_1 Cert.KernelIdeal.Facts₀.shapeCasts_S2_S1x2

variable (m : (ℓ : Loc nD τ sig) → Buf (Elt Ideal) ℓ) (c : Dev nD)

/-- The reference run's composed term is the reference's network of the launch arrays: the same operations, grouped. -/
theorem res_eq_hostOut : Value.res_main_v97 (F := Ideal) m c
    = hostOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := rfl

/-- The reference run's result is the network's output of its launch arrays. -/
theorem res_eq_gcnOut : Value.res_main_v97 (F := Ideal) m c
    = gcnOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (res_eq_hostOut m c).trans (hostOut_eq _ _ _ _ _ _ _ _)

end Cert.ReferenceIdeal.Bridge

end
-- ==== Proof.lean ====
/-
  A two-layer graph convolution network over 100000 nodes and 1600000 edges, against its plain reference.

  The kernel runs the three dense products and the two combines (aggregated messages + self-loop term + bias, then
  the maximum with zero) as five row-tiled regions of 20 grid points each, with the gathers and scatters along the edges
  as host operations between them; the reference is host operations throughout. At the ideal values:

  * each product region multiplies a block of 5000 rows by the whole weight matrix (its bf16 roundings are the identity),
    and a row of a product depends on that row of the left operand only, so the region's result is the one product,
    the same sum of the same products as the reference's `dot_general`;
  * each combine region computes `max ((A + H · d) + b, 0)` entry by entry, in the reference's own order of the two
    sums, so its result is the reference's broadcast sums and maximum;
  * the graph operations between the regions are the reference's, with the same dimension numbers and constants.

  So both programs end at one function of the eight arguments (`gcnOut`), with no hypothesis on the inputs: the
  precondition is never opened. The three frames are the generated frame certificates (the reference's is its
  generated run with the result dropped); the ideal pass rewrote nothing, so `preserves` is `True`.
-/
import proofs.«128843_j52518860095815_1_alg».proof.Defs
import proofs.«128843_j52518860095815_1_alg».proof.Proof.Gen.Kernel
import proofs.«128843_j52518860095815_1_alg».proof.Proof.Gen.Kernel.Frame
import proofs.«128843_j52518860095815_1_alg».proof.Proof.Gen.KernelIdeal
import proofs.«128843_j52518860095815_1_alg».proof.Proof.Gen.KernelIdeal.Frame
import proofs.«128843_j52518860095815_1_alg».proof.Proof.Gen.ReferenceIdeal
import proofs.«128843_j52518860095815_1_alg».proof.Proof.Gen.ReferenceIdeal.Run
import proofs.«128843_j52518860095815_1_alg».proof.Proof.Gen.Pre_finite_inputs
import proofs.«128843_j52518860095815_1_alg».proof.Proof.KernelWhole
import proofs.«128843_j52518860095815_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with their result at the network's output of the arguments they agree on. -/
theorem algebraic : Cert.algebraic_KernelIdeal_ReferenceIdeal := by
  intro m ρ m' ρ' _ hagree
  refine ⟨fun c => Cert.KernelIdeal.Whole.gcnOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.ReferenceIdeal.Bridge.res_eq_gcnOut m' c, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
